-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S2x4096 : Shape := ⟨2, ![2, 4096]⟩
abbrev S1024x3584 : Shape := ⟨2, ![1024, 3584]⟩
abbrev S3584x1024 : Shape := ⟨2, ![3584, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x3584 : S_.BroadcastsInDim S1024x3584 (![] : Fin 0 → Fin S1024x3584.rank)
  reducesTo_S1024x3584_S_d0_1 : S1024x3584.ReducesTo [0, 1] S_
  bcast_S_S3584x1024 : S_.BroadcastsInDim S3584x1024 (![] : Fin 0 → Fin S3584x1024.rank)
  reducesTo_S3584x1024_S_d0_1 : S3584x1024.ReducesTo [0, 1] S_

variable [Facts]

def fn_part1 {F : FTy → Type} [FloatOps F] (main_arg5 : FVec F S1024x3584 .f32) (main_arg6 : FVec F S1024x3584 .f32) (main_arg7 : FVec F S3584x1024 .f32) (main_v13 : IVec S_ 1) (main_v16 : IVec S3584x1024 1) : IVec S_ 1 :=
  let main_c_5 : IVec S_ 1 := constantI S_ 1 1#1
  let main_v17 : IVec S_ 1 := (fun x v => Host.reduce IntOp.andi x v reducesTo_S3584x1024_S_d0_1 h_S_) main_v16 main_c_5
  let main_v18 : IVec S_ 1 := andi main_v13 main_v17
  let main_v19 : FVec F S1024x3584 .f32 := Host.absf main_arg5
  let main_cst_6 : FVec F S_ .f32 := constant S_ .f32 0x7F800000#32
  let main_v20 : FVec F S1024x3584 .f32 := broadcastInDim S1024x3584 ![] bcast_S_S1024x3584 main_cst_6
  let main_v21 : IVec S1024x3584 1 := cmpf .olt main_v19 main_v20
  let main_c_7 : IVec S_ 1 := constantI S_ 1 1#1
  let main_v22 : IVec S_ 1 := (fun x v => Host.reduce IntOp.andi x v reducesTo_S1024x3584_S_d0_1 h_S_) main_v21 main_c_7
  let main_v23 : IVec S_ 1 := andi main_v18 main_v22
  let main_v24 : FVec F S1024x3584 .f32 := Host.absf main_arg6
  let main_cst_8 : FVec F S_ .f32 := constant S_ .f32 0x7F800000#32
  let main_v25 : FVec F S1024x3584 .f32 := broadcastInDim S1024x3584 ![] bcast_S_S1024x3584 main_cst_8
  let main_v26 : IVec S1024x3584 1 := cmpf .olt main_v24 main_v25
  let main_c_9 : IVec S_ 1 := constantI S_ 1 1#1
  let main_v27 : IVec S_ 1 := (fun x v => Host.reduce IntOp.andi x v reducesTo_S1024x3584_S_d0_1 h_S_) main_v26 main_c_9
  let main_v28 : IVec S_ 1 := andi main_v23 main_v27
  let main_v29 : FVec F S3584x1024 .f32 := Host.absf main_arg7
  let main_cst_10 : FVec F S_ .f32 := constant S_ .f32 0x7F800000#32
  let main_v30 : FVec F S3584x1024 .f32 := broadcastInDim S3584x1024 ![] bcast_S_S3584x1024 main_cst_10
  let main_v31 : IVec S3584x1024 1 := cmpf .olt main_v29 main_v30
  let main_c_11 : IVec S_ 1 := constantI S_ 1 1#1
  let main_v32 : IVec S_ 1 := (fun x v => Host.reduce IntOp.andi x v reducesTo_S3584x1024_S_d0_1 h_S_) main_v31 main_c_11
  let main_v33 : IVec S_ 1 := andi main_v28 main_v32
  main_v33

def fn {F : FTy → Type} [FloatOps F] (main_arg0 : FVec F S2x4096x1024 .f32) (main_arg1 : IVec S2x4096 32) (main_arg2 : FVec F S1024x3584 .f32) (main_arg3 : FVec F S1024x3584 .f32) (main_arg4 : FVec F S3584x1024 .f32) (main_arg5 : FVec F S1024x3584 .f32) (main_arg6 : FVec F S1024x3584 .f32) (main_arg7 : FVec F S3584x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024x3584 .f32 := Host.absf main_arg2
  let main_cst_0 : FVec F S_ .f32 := constant S_ .f32 0x7F800000#32
  let main_v5 : FVec F S1024x3584 .f32 := broadcastInDim S1024x3584 ![] bcast_S_S1024x3584 main_cst_0
  let main_v6 : IVec S1024x3584 1 := cmpf .olt main_v4 main_v5
  let main_c_1 : IVec S_ 1 := constantI S_ 1 1#1
  let main_v7 : IVec S_ 1 := (fun x v => Host.reduce IntOp.andi x v reducesTo_S1024x3584_S_d0_1 h_S_) main_v6 main_c_1
  let main_v8 : IVec S_ 1 := andi main_v3 main_v7
  let main_v9 : FVec F S1024x3584 .f32 := Host.absf main_arg3
  let main_cst_2 : FVec F S_ .f32 := constant S_ .f32 0x7F800000#32
  let main_v10 : FVec F S1024x3584 .f32 := broadcastInDim S1024x3584 ![] bcast_S_S1024x3584 main_cst_2
  let main_v11 : IVec S1024x3584 1 := cmpf .olt main_v9 main_v10
  let main_c_3 : IVec S_ 1 := constantI S_ 1 1#1
  let main_v12 : IVec S_ 1 := (fun x v => Host.reduce IntOp.andi x v reducesTo_S1024x3584_S_d0_1 h_S_) main_v11 main_c_3
  let main_v13 : IVec S_ 1 := andi main_v8 main_v12
  let main_v14 : FVec F S3584x1024 .f32 := Host.absf main_arg4
  let main_cst_4 : FVec F S_ .f32 := constant S_ .f32 0x7F800000#32
  let main_v15 : FVec F S3584x1024 .f32 := broadcastInDim S3584x1024 ![] bcast_S_S3584x1024 main_cst_4
  let main_v16 : IVec S3584x1024 1 := cmpf .olt main_v14 main_v15
  fn_part1 (F := F) main_arg5 main_arg6 main_arg7 main_v13 main_v16
-- ==== Kernel.lean ====
abbrev S2x4096x1024 : Shape := ⟨3, ![2, 4096, 1024]⟩
abbrev S2x4096 : Shape := ⟨2, ![2, 4096]⟩
abbrev S1024x3584 : Shape := ⟨2, ![1024, 3584]⟩
abbrev S3584x1024 : Shape := ⟨2, ![3584, 1024]⟩
abbrev S8192x1024 : Shape := ⟨2, ![8192, 1024]⟩
abbrev S8192x1 : Shape := ⟨2, ![8192, 1]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 19
  | .vmem => 20
  | .smem => 0
  | _ => 0

abbrev bufTy : (tb : Table) → Fin (tcTables nBuf tb) → BufTy
  | .hbm, ⟨0, _⟩ => ⟨S2x4096x1024, .f32⟩
  | .hbm, ⟨1, _⟩ => ⟨S2x4096, .i32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S1024x3584, .f32⟩
  | .hbm, ⟨6, _⟩ => ⟨S1024x3584, .f32⟩
  | .hbm, ⟨7, _⟩ => ⟨S3584x1024, .f32⟩
  | .hbm, ⟨8, _⟩ => ⟨S8192x1024, .f32⟩
  | .hbm, ⟨9, _⟩ => ⟨S8192x1024, .bf16⟩
  | .hbm, ⟨10, _⟩ => ⟨S1024x3584, .bf16⟩
  | .hbm, ⟨11, _⟩ => ⟨S1024x3584, .bf16⟩
  | .hbm, ⟨12, _⟩ => ⟨S3584x1024, .bf16⟩
  | .hbm, ⟨13, _⟩ => ⟨S1024x3584, .bf16⟩
  | .hbm, ⟨14, _⟩ => ⟨S1024x3584, .bf16⟩
  | .hbm, ⟨15, _⟩ => ⟨S3584x1024, .bf16⟩
  | .hbm, ⟨16, _⟩ => ⟨S8192x1, .i32⟩
  | .hbm, ⟨17, _⟩ => ⟨S8192x1024, .f32⟩
  | .hbm, ⟨18, _⟩ => ⟨S2x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S256x1024, .bf16⟩
  | .local _ .vmem, ⟨14, _⟩ => ⟨S1024x1, .i32⟩
  | .local _ .vmem, ⟨15, _⟩ => ⟨S1024x1, .i32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 14], ![false, false]⟩

def k0_cond2 (i : grid0.Coords) : BitVec 1 :=
  let arg1 : BitVec 32 := BitVec.ofNat 32 (i 1).val
  let c13_i32 : BitVec 32 := 13#32
  let v41 : BitVec 1 := Scalar.cmpi .eq arg1 c13_i32
  let v42 : BitVec 32 := Scalar.extui v41
  let c0_i32_27 : BitVec 32 := 0#32
  let v43 : BitVec 1 := Scalar.cmpi .ne v42 c0_i32_27
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S2x4096x1024_S8192x1024 : S2x4096x1024.ShapeCasts S8192x1024
  bitsLt_bf16_f32 : FTy.bits .bf16 < FTy.bits .f32
  shapeCasts_S2x4096_S8192x1 : S2x4096.ShapeCasts S8192x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  broadcasts_S1024x1_S1024x1024 : S1024x1.Broadcasts S1024x1024
  shapeCasts_S8192x1024_S2x4096x1024 : S8192x1024.ShapeCasts S2x4096x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x3584.size a
  hwx0_1 : ∀ i : grid0.Coords, EltTy.bits .bf16 = 32 ∨ (Rect.block (s := S1024x3584) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x3584.size a
  hwx0_2 : ∀ i : grid0.Coords, EltTy.bits .bf16 = 32 ∨ (Rect.block (s := S1024x3584) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S3584x1024.size a
  hwx0_3 : ∀ i : grid0.Coords, EltTy.bits .bf16 = 32 ∨ (Rect.block (s := S3584x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x3584.size a
  hwx0_4 : ∀ i : grid0.Coords, EltTy.bits .bf16 = 32 ∨ (Rect.block (s := S1024x3584) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x3584.size a
  hwx0_5 : ∀ i : grid0.Coords, EltTy.bits .bf16 = 32 ∨ (Rect.block (s := S1024x3584) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S3584x1024.size a
  hwx0_6 : ∀ i : grid0.Coords, EltTy.bits .bf16 = 32 ∨ (Rect.block (s := S3584x1024) S256x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .i32 = 32 ∨ (Rect.block (s := S8192x1) S1024x1.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S8192x1024.size a
  hwx0_8 : ∀ i : grid0.Coords, EltTy.bits .f32 = 32 ∨ (Rect.block (s := S8192x1024) S1024x1024.size (cc0_transform_8 i) (hinb0_8 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1024x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S2x4096x1024 : Shape := ⟨3, ![2, 4096, 1024]⟩
abbrev S2x4096 : Shape := ⟨2, ![2, 4096]⟩
abbrev S1024x3584 : Shape := ⟨2, ![1024, 3584]⟩
abbrev S3584x1024 : Shape := ⟨2, ![3584, 1024]⟩
abbrev S2x4096x3584 : Shape := ⟨3, ![2, 4096, 3584]⟩
abbrev S_ : Shape := ⟨0, ![]⟩
abbrev S2x4096x1 : Shape := ⟨3, ![2, 4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096, .i32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S1024x3584, .f32⟩
  | .hbm, ⟨6, _⟩ => ⟨S1024x3584, .f32⟩
  | .hbm, ⟨7, _⟩ => ⟨S3584x1024, .f32⟩
  | .hbm, ⟨8, _⟩ => ⟨S2x4096x3584, .f32⟩
  | .hbm, ⟨9, _⟩ => ⟨S2x4096x3584, .f32⟩
  | .hbm, ⟨10, _⟩ => ⟨S2x4096x3584, .f32⟩
  | .hbm, ⟨11, _⟩ => ⟨S_, .f32⟩
  | .hbm, ⟨12, _⟩ => ⟨S2x4096x3584, .f32⟩
  | .hbm, ⟨13, _⟩ => ⟨S2x4096x3584, .f32⟩
  | .hbm, ⟨14, _⟩ => ⟨S_, .f32⟩
  | .hbm, ⟨15, _⟩ => ⟨S2x4096x3584, .f32⟩
  | .hbm, ⟨16, _⟩ => ⟨S2x4096x3584, .f32⟩
  | .hbm, ⟨17, _⟩ => ⟨S2x4096x3584, .f32⟩
  | .hbm, ⟨18, _⟩ => ⟨S2x4096x3584, .f32⟩
  | .hbm, ⟨19, _⟩ => ⟨S2x4096x3584, .f32⟩
  | .hbm, ⟨20, _⟩ => ⟨S2x4096x1024, .f32⟩
  | .hbm, ⟨21, _⟩ => ⟨S2x4096x3584, .f32⟩
  | .hbm, ⟨22, _⟩ => ⟨S2x4096x3584, .f32⟩
  | .hbm, ⟨23, _⟩ => ⟨S2x4096x3584, .f32⟩
  | .hbm, ⟨24, _⟩ => ⟨S_, .f32⟩
  | .hbm, ⟨25, _⟩ => ⟨S2x4096x3584, .f32⟩
  | .hbm, ⟨26, _⟩ => ⟨S2x4096x3584, .f32⟩
  | .hbm, ⟨27, _⟩ => ⟨S_, .f32⟩
  | .hbm, ⟨28, _⟩ => ⟨S2x4096x3584, .f32⟩
  | .hbm, ⟨29, _⟩ => ⟨S2x4096x3584, .f32⟩
  | .hbm, ⟨30, _⟩ => ⟨S2x4096x3584, .f32⟩
  | .hbm, ⟨31, _⟩ => ⟨S2x4096x3584, .f32⟩
  | .hbm, ⟨32, _⟩ => ⟨S2x4096x3584, .f32⟩
  | .hbm, ⟨33, _⟩ => ⟨S2x4096x1024, .f32⟩
  | .hbm, ⟨34, _⟩ => ⟨S_, .i32⟩
  | .hbm, ⟨35, _⟩ => ⟨S2x4096, .i32⟩
  | .hbm, ⟨36, _⟩ => ⟨S2x4096, .i1⟩
  | .hbm, ⟨37, _⟩ => ⟨S2x4096x1, .i1⟩
  | .hbm, ⟨38, _⟩ => ⟨S2x4096x1, .f32⟩
  | .hbm, ⟨39, _⟩ => ⟨S_, .i32⟩
  | .hbm, ⟨40, _⟩ => ⟨S2x4096, .i32⟩
  | .hbm, ⟨41, _⟩ => ⟨S2x4096, .i1⟩
  | .hbm, ⟨42, _⟩ => ⟨S2x4096x1, .i1⟩
  | .hbm, ⟨43, _⟩ => ⟨S2x4096x1, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩

abbrev nD : Nat := 1
abbrev τ : Topo := Topo.v7x

variable {F : FTy → Type} [FloatOps F]

class Facts₀ : Prop where
  bcast_S_S2x4096x3584 : S_.BroadcastsInDim S2x4096x3584 (![] : Fin 0 → Fin S2x4096x3584.rank)
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x1024_0_1_2 : S2x4096x1.BroadcastsInDim S2x4096x1024 (![0, 1, 2] : Fin 3 → Fin S2x4096x1024.rank)
  dot_S2x4096x1024_S1024x3584_S2x4096x3584_2_0_01_1_n_n_wf : DotDims.WF S2x4096x1024 S1024x3584 S2x4096x3584 [2] [0] [0, 1] [1] [] []
  dot_S2x4096x3584_S3584x1024_S2x4096x1024_2_0_01_1_n_n_wf : DotDims.WF S2x4096x3584 S3584x1024 S2x4096x1024 [2] [0] [0, 1] [1] [] []

variable [Facts₀]

def dot_S2x4096x1024_S1024x3584_S2x4096x3584_2_0_01_1_n_n : DotDims S2x4096x1024 S1024x3584 S2x4096x3584 where
  lhsContracting := [2]
  rhsContracting := [0]
  lhsNonContracting := [0, 1]
  rhsNonContracting := [1]
  lhsBatch := []
  rhsBatch := []
  wf := dot_S2x4096x1024_S1024x3584_S2x4096x3584_2_0_01_1_n_n_wf
def dot_S2x4096x3584_S3584x1024_S2x4096x1024_2_0_01_1_n_n : DotDims S2x4096x3584 S3584x1024 S2x4096x1024 where
  lhsContracting := [2]
  rhsContracting := [0]
  lhsNonContracting := [0, 1]
  rhsNonContracting := [1]
  lhsBatch := []
  rhsBatch := []
  wf := dot_S2x4096x3584_S3584x1024_S2x4096x1024_2_0_01_1_n_n_wf

class Facts : Prop extends Facts₀ where

variable [Facts]
-- ==== Proof.LibTileSum.lean ====
/-
  Sums regrouped by tiles of rows, in any commutative additive monoid (so also on the extended reals, where no
  finiteness is asked: only commutativity and associativity of the sum are used).

  * `sum_tiles`: the sum over `A * B` consecutive rows is the sum over `A` tiles of the sums over each tile's `B`
    rows; row `B * t + r` of the whole is row `r` of tile `t` (`tileRow`).
  * `sum_idx1`, `sum_unitCol`: a sum over the multi-indices of a vector `[n]`, or of a one-column matrix `[n, 1]`,
    is the sum over the row coordinate.
  * `sum_shapeCast`: a shape cast keeps every element at its row-major position, so the sum over a shape cast of a
    vector is the sum over the vector.
-/
import Idealize.ShloMosaic.Lib.ValueIdx

noncomputable section

open scoped BigOperators

namespace Cert.Lib.TileSum

open Idealize.ShloMosaic Idealize.ShloMosaic.ValueIdx

variable {M : Type} [AddCommMonoid M]

/-- Row `r` of tile `t`, among `A` tiles of `B` rows each, is a row of the whole. -/
theorem tile_row_lt {A B : ℕ} (t : Fin A) (r : Fin B) : B * t.val + r.val < A * B := by
  have h1 : B * t.val + r.val < B * t.val + B := Nat.add_lt_add_left r.isLt _
  have h2 : B * t.val + B ≤ A * B := by
    have h3 : B * (t.val + 1) ≤ B * A := Nat.mul_le_mul_left B t.isLt
    rw [Nat.mul_add, Nat.mul_one, Nat.mul_comm B A] at h3
    exact h3
  exact lt_of_lt_of_le h1 h2

/-- Row `r` of tile `t` as a row of the whole: number `B * t + r`. -/
def tileRow {A B N : ℕ} (h : A * B = N) (t : Fin A) (r : Fin B) : Fin N :=
  ⟨B * t.val + r.val, h ▸ tile_row_lt t r⟩

@[simp] theorem tileRow_val {A B N : ℕ} (h : A * B = N) (t : Fin A) (r : Fin B) :
    (tileRow h t r).val = B * t.val + r.val := rfl

/-- A sum over all rows is the sum over the tiles of the sums over each tile's rows. -/
theorem sum_tiles {A B N : ℕ} (h : A * B = N) (f : Fin N → M) :
    ∑ t : Fin A, ∑ r : Fin B, f (tileRow h t r) = ∑ j : Fin N, f j := by
  subst h
  calc ∑ t : Fin A, ∑ r : Fin B, f (tileRow rfl t r)
      = ∑ x : Fin A × Fin B, f (tileRow rfl x.1 x.2) := (Fintype.sum_prod_type' fun t r => f (tileRow rfl t r)).symm
    _ = ∑ x : Fin A × Fin B, f (finProdFinEquiv x) :=
        Finset.sum_congr rfl fun x _ => congrArg f (Fin.ext (Nat.add_comm _ _))
    _ = ∑ j : Fin (A * B), f j := Equiv.sum_comp finProdFinEquiv f

/-- The multi-indices of a vector `[n]` are its coordinates … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {n : ℕ} (f : (⟨1, ![n]⟩ : Shape).Idx → M) : ∑ i, f i = ∑ a : Fin n, f (ix1 a) :=
  (Equiv.sum_comp (idxEquiv1 (n := n)).symm f).symm

/-- A sum over the multi-indices of a one-column matrix `[n, 1]` is the sum over the rows. -/
theorem sum_unitCol {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A shape cast relabels positions, one to one: the sum over a shape cast of `v` is the sum over `v`. -/
theorem sum_shapeCast {s t : Shape} (v : s.Idx → M) (h : s.ShapeCasts t) :
    ∑ j : t.Idx, shapeCast t v h j = ∑ i : s.Idx, v i :=
  Equiv.sum_comp (Shape.reshapeEquiv h) v

end Cert.Lib.TileSum

end
-- ==== Proof.Spec.lean ====
/-
  The function both programs compute, index by index, on the extended reals: a two-expert gated layer with a routing
  mask.

  For a token row x (1024 entries) and an expert's weights Wg, Wu (1024 × 3584) and Wd (3584 × 1024):
    pre x W f    = ∑ k, x k · W (k, f)                         the projection onto hidden unit f
    hid x f      = (g · logistic g) · u,  g = pre x Wg f,  u = pre x Wu f      the gated hidden unit
    expert x d   = ∑ f, hid x f · Wd (f, d)                    the expert's output at column d
  and the layer's output at token (b, s), column d is
    expert₀ x d · [mask (b, s) = 0] + expert₁ x d · [mask (b, s) = 1],
  the brackets being the comparison's one bit read as the number 0 or 1.

  The sum over the 3584 hidden units can be taken tile by tile — 14 tiles of 256 units, accumulated in order onto 0
  (`acc`) —: on the extended reals a finite sum may be regrouped freely (only commutativity and associativity of +
  are used, no finiteness), so the accumulation after the last tile is the whole sum (`acc_last`).
-/
import Idealize.ShloMosaic.PureOps.Ideal
import Idealize.ShloMosaic.Lib.ValueIdx
import proofs.«177753_j52956946759945_2_alg».proof.Proof.LibTileSum

noncomputable section

open scoped BigOperators

namespace Cert.MoeSpec

open Idealize.ShloMosaic Idealize.ShloMosaic.ValueIdx Cert.Lib.TileSum

/-- The projection of a token row onto hidden unit `f`. -/
def pre (x : Fin 1024 → EReal) (w : FVec Ideal ⟨2, ![1024, 3584]⟩ .f32) (f : Fin 3584) : EReal :=
  ∑ k : Fin 1024, x k * w (ix2 k f)

/-- The gated hidden unit `f`: silu of the gate projection times the up projection. -/
def hid (x : Fin 1024 → EReal) (wg wu : FVec Ideal ⟨2, ![1024, 3584]⟩ .f32) (f : Fin 3584) : EReal :=
  (pre x wg f * Ideal.logistic (pre x wg f)) * pre x wu f

/-- One expert's output at column `d`: the hidden units against the down projection. -/
def expert (x : Fin 1024 → EReal) (wg wu : FVec Ideal ⟨2, ![1024, 3584]⟩ .f32) (wd : FVec Ideal ⟨2, ![3584, 1024]⟩ .f32)
    (d : Fin 1024) : EReal :=
  ∑ f : Fin 3584, hid x wg wu f * wd (ix2 f d)

/-- The routing weight: 1 when the mask word is `c`, else 0 (the comparison's bit as a number). -/
def sel (v c : BitVec 32) : EReal := (((IntOp.cmpi .eq v c).toNat : ℝ) : EReal)

/-- The layer: both experts over every token, combined by the routing mask. -/
def moe (x : FVec Ideal ⟨3, ![2, 4096, 1024]⟩ .f32) (mk : IVec ⟨2, ![2, 4096]⟩ 32)
    (wg0 wu0 : FVec Ideal ⟨2, ![1024, 3584]⟩ .f32) (wd0 : FVec Ideal ⟨2, ![3584, 1024]⟩ .f32)
    (wg1 wu1 : FVec Ideal ⟨2, ![1024, 3584]⟩ .f32) (wd1 : FVec Ideal ⟨2, ![3584, 1024]⟩ .f32) :
    FVec Ideal ⟨3, ![2, 4096, 1024]⟩ .f32 := fun i =>
  expert (fun k => x (ix3 (i 0) (i 1) k)) wg0 wu0 wd0 (i 2) * sel (mk (ix2 (i 0) (i 1))) 0#32
    + expert (fun k => x (ix3 (i 0) (i 1) k)) wg1 wu1 wd1 (i 2) * sel (mk (ix2 (i 0) (i 1))) 1#32

/-! ## The sum over the hidden units, tile by tile -/

theorem tiles : 14 * 256 = 3584 := by norm_num

/-- Tile `j`'s contribution to column `d`: its 256 hidden units against their rows of the down projection. -/
def tileTerm (x : Fin 1024 → EReal) (wg wu : FVec Ideal ⟨2, ![1024, 3584]⟩ .f32) (wd : FVec Ideal ⟨2, ![3584, 1024]⟩ .f32)
    (d : Fin 1024) (j : Fin 14) : EReal :=
  ∑ f : Fin 256, hid x wg wu (tileRow tiles j f) * wd (ix2 (tileRow tiles j f) d)

/-- The same by a natural number (0 past the last tile). -/
def tileTermN (x : Fin 1024 → EReal) (wg wu : FVec Ideal ⟨2, ![1024, 3584]⟩ .f32) (wd : FVec Ideal ⟨2, ![3584, 1024]⟩ .f32)
    (d : Fin 1024) (j : ℕ) : EReal :=
  if h : j < 14 then tileTerm x wg wu wd d ⟨j, h⟩ else 0

/-- The accumulation after tile `n`: tiles 0 … n added in order onto 0. -/
def acc (x : Fin 1024 → EReal) (wg wu : FVec Ideal ⟨2, ![1024, 3584]⟩ .f32) (wd : FVec Ideal ⟨2, ![3584, 1024]⟩ .f32)
    (d : Fin 1024) : ℕ → EReal
  | 0 => 0 + tileTermN x wg wu wd d 0
  | n + 1 => acc x wg wu wd d n + tileTermN x wg wu wd d (n + 1)

theorem acc_eq_sum (x : Fin 1024 → EReal) (wg wu : FVec Ideal ⟨2, ![1024, 3584]⟩ .f32) (wd : FVec Ideal ⟨2, ![3584, 1024]⟩ .f32)
    (d : Fin 1024) (n : ℕ) : acc x wg wu wd d n = ∑ j ∈ Finset.range (n + 1), tileTermN x wg wu wd d j := by
  induction n with
  | zero => simp [acc]
  | succ n ih => rw [acc, ih, Finset.sum_range_succ _ (n + 1)]

/-- After the last tile the accumulation is the expert's whole sum. -/
theorem acc_last (x : Fin 1024 → EReal) (wg wu : FVec Ideal ⟨2, ![1024, 3584]⟩ .f32) (wd : FVec Ideal ⟨2, ![3584, 1024]⟩ .f32)
    (d : Fin 1024) : acc x wg wu wd d 13 = expert x wg wu wd d := by
  rw [acc_eq_sum, expert, ← sum_tiles tiles, Finset.sum_range]
  refine Finset.sum_congr rfl fun j _ => ?_
  rw [tileTermN, dif_pos j.isLt]
  rfl

end Cert.MoeSpec

end
-- ==== Proof.RefValue.lean ====
/-
  The reference program computes the specification.

  The reference is the plain formula, one operation at a time: for each of the two experts, the gate and up
  projections of every token row (sums over the 1024 input features), the gate passed through x · 1 / (1 + e⁻ˣ), the
  product of the two, and the down projection (a sum over the 3584 hidden units); then each expert's output is
  multiplied by the comparison "mask word = expert number" read as the number 0 or 1, and the two are added.

  Read at an output index (b, s, d), every operation's element is the same operation on the elements of its operands
  at the matching indices, so the result unfolds, from the outside in, into exactly the specification's expression:
    • a projection's element at (b, s, f) is ∑ k, x (b, s, k) · W (k, f): the operand indices are (b, s, k) and (k, f);
    • 1 / (1 + e⁻ᵍ), with the literal 0x3F800000 being the number one, is the logistic function of g on the extended reals;
    • the mask weight at (b, s, d) is the one-bit comparison at (b, s) read as an unsigned number: the broadcasts along
      the size-one axis and along the columns only copy it.
  No law of arithmetic is used: the two sides are the same expression once the indices are identified.
-/
import proofs.«177753_j52956946759945_2_alg».proof.Proof.Gen.ReferenceIdeal.Read
import proofs.«177753_j52956946759945_2_alg».proof.Proof.Spec

noncomputable section

open scoped BigOperators

namespace Cert.ReferenceIdeal.RefValue

open Cert.ReferenceIdeal Cert.ReferenceIdeal.Read Idealize.ShloMosaic Idealize.ShloMosaic.ValueIdx Cert.MoeSpec

/-! ## The literal one and the logistic function -/

/-- The 32-bit pattern 0x3F800000 is the number one. -/
theorem one_bits : Ideal.ofBits .f32 0x3F800000#32 = 1 := by
  simp [Ideal.ofBits, Ideal.ieee, -EReal.coe_mul]; norm_num

/-- 1 / (1 + e⁻ᵍ), spelt with the literal one, is the logistic function of g. -/
theorem logistic_spelt (g : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf g)))
      = Ideal.logistic g := by
  rw [Ideal.ofBits_def, one_bits]
  rfl

/-! ## Operand indices of the projections, at coordinates -/

theorem lidx_v0 (b : Fin 2) (s : Fin 4096) (f : Fin 3584) (k : Fin 1024) : lidx_main_v0 (ix3 b s f) k = ix3 b s k :=
  funext fun a => Fin.ext (by match a with | ⟨0, _⟩ => rfl | ⟨1, _⟩ => rfl | ⟨2, _⟩ => rfl)
theorem ridx_v0 (b : Fin 2) (s : Fin 4096) (f : Fin 3584) (k : Fin 1024) : ridx_main_v0 (ix3 b s f) k = ix2 k f :=
  funext fun a => Fin.ext (by match a with | ⟨0, _⟩ => rfl | ⟨1, _⟩ => rfl)
theorem lidx_v2 (b : Fin 2) (s : Fin 4096) (f : Fin 3584) (k : Fin 1024) : lidx_main_v2 (ix3 b s f) k = ix3 b s k :=
  funext fun a => Fin.ext (by match a with | ⟨0, _⟩ => rfl | ⟨1, _⟩ => rfl | ⟨2, _⟩ => rfl)
theorem ridx_v2 (b : Fin 2) (s : Fin 4096) (f : Fin 3584) (k : Fin 1024) : ridx_main_v2 (ix3 b s f) k = ix2 k f :=
  funext fun a => Fin.ext (by match a with | ⟨0, _⟩ => rfl | ⟨1, _⟩ => rfl)
theorem lidx_v5 (b : Fin 2) (s : Fin 4096) (f : Fin 3584) (k : Fin 1024) : lidx_main_v5 (ix3 b s f) k = ix3 b s k :=
  funext fun a => Fin.ext (by match a with | ⟨0, _⟩ => rfl | ⟨1, _⟩ => rfl | ⟨2, _⟩ => rfl)
theorem ridx_v5 (b : Fin 2) (s : Fin 4096) (f : Fin 3584) (k : Fin 1024) : ridx_main_v5 (ix3 b s f) k = ix2 k f :=
  funext fun a => Fin.ext (by match a with | ⟨0, _⟩ => rfl | ⟨1, _⟩ => rfl)
theorem lidx_v7 (b : Fin 2) (s : Fin 4096) (f : Fin 3584) (k : Fin 1024) : lidx_main_v7 (ix3 b s f) k = ix3 b s k :=
  funext fun a => Fin.ext (by match a with | ⟨0, _⟩ => rfl | ⟨1, _⟩ => rfl | ⟨2, _⟩ => rfl)
theorem ridx_v7 (b : Fin 2) (s : Fin 4096) (f : Fin 3584) (k : Fin 1024) : ridx_main_v7 (ix3 b s f) k = ix2 k f :=
  funext fun a => Fin.ext (by match a with | ⟨0, _⟩ => rfl | ⟨1, _⟩ => rfl)
theorem lidx_v4 (b : Fin 2) (s : Fin 4096) (d : Fin 1024) (f : Fin 3584) : lidx_main_v4 (ix3 b s d) f = ix3 b s f :=
  funext fun a => Fin.ext (by match a with | ⟨0, _⟩ => rfl | ⟨1, _⟩ => rfl | ⟨2, _⟩ => rfl)
theorem ridx_v4 (b : Fin 2) (s : Fin 4096) (d : Fin 1024) (f : Fin 3584) : ridx_main_v4 (ix3 b s d) f = ix2 f d :=
  funext fun a => Fin.ext (by match a with | ⟨0, _⟩ => rfl | ⟨1, _⟩ => rfl)
theorem lidx_v9 (b : Fin 2) (s : Fin 4096) (d : Fin 1024) (f : Fin 3584) : lidx_main_v9 (ix3 b s d) f = ix3 b s f :=
  funext fun a => Fin.ext (by match a with | ⟨0, _⟩ => rfl | ⟨1, _⟩ => rfl | ⟨2, _⟩ => rfl)
theorem ridx_v9 (b : Fin 2) (s : Fin 4096) (d : Fin 1024) (f : Fin 3584) : ridx_main_v9 (ix3 b s d) f = ix2 f d :=
  funext fun a => Fin.ext (by match a with | ⟨0, _⟩ => rfl | ⟨1, _⟩ => rfl)

/-- The mask weight at (b, s, d) is read from the mask at (b, s): through the copy along the columns and the size-one axis. -/
theorem idx_mask0 (b : Fin 2) (s : Fin 4096) (d : Fin 1024) : idx_main_v12 (idx_main_v18 (ix3 b s d)) = ix2 b s :=
  funext fun a => Fin.ext (by match a with | ⟨0, _⟩ => rfl | ⟨1, _⟩ => rfl)
theorem idx_mask1 (b : Fin 2) (s : Fin 4096) (d : Fin 1024) : idx_main_v16 (idx_main_v20 (ix3 b s d)) = ix2 b s :=
  funext fun a => Fin.ext (by match a with | ⟨0, _⟩ => rfl | ⟨1, _⟩ => rfl)

/-! ## The first expert -/

section
variable (x0 : (⟨S2x4096x1024, .f32⟩ : BufTy).Contents (Elt Ideal)) (x1 : (⟨S2x4096, .i32⟩ : BufTy).Contents (Elt Ideal))
  (x2 x3 : (⟨S1024x3584, .f32⟩ : BufTy).Contents (Elt Ideal)) (x4 : (⟨S3584x1024, .f32⟩ : BufTy).Contents (Elt Ideal))
  (x5 x6 : (⟨S1024x3584, .f32⟩ : BufTy).Contents (Elt Ideal)) (x7 : (⟨S3584x1024, .f32⟩ : BufTy).Contents (Elt Ideal))

/-- The gate projection of token (b, s) onto hidden unit f. -/
theorem v0_at (b : Fin 2) (s : Fin 4096) (f : Fin 3584) :
    val_main_v0 (F := Ideal) x0 x2 (ix3 b s f) = pre (fun k => x0 (ix3 b s k)) x2 f := by
  rw [val_main_v0_apply, pre]
  refine Finset.sum_congr rfl fun k _ => ?_
  rw [lidx_v0, ridx_v0]

/-- The up projection of token (b, s) onto hidden unit f. -/
theorem v2_at (b : Fin 2) (s : Fin 4096) (f : Fin 3584) :
    val_main_v2 (F := Ideal) x0 x3 (ix3 b s f) = pre (fun k => x0 (ix3 b s k)) x3 f := by
  rw [val_main_v2_apply, pre]
  refine Finset.sum_congr rfl fun k _ => ?_
  rw [lidx_v2, ridx_v2]

/-- The gated hidden unit f of token (b, s). -/
theorem v3_at (b : Fin 2) (s : Fin 4096) (f : Fin 3584) :
    val_main_v3 (F := Ideal) x0 x2 x3 (ix3 b s f) = hid (fun k => x0 (ix3 b s k)) x2 x3 f := by
  rw [val_main_v3_apply, val_main_v1_apply, val_main_call0_v5_apply, val_main_call0_v4_apply, val_main_call0_cst_0_apply,
    val_main_call0_v3_apply, val_main_call0_v2_apply, val_main_call0_cst_apply, val_main_call0_v1_apply,
    val_main_call0_v0_apply, logistic_spelt, v0_at, v2_at]
  rfl

/-- The first expert's output at token (b, s), column d. -/
theorem v4_at (b : Fin 2) (s : Fin 4096) (d : Fin 1024) :
    val_main_v4 (F := Ideal) x0 x2 x3 x4 (ix3 b s d) = expert (fun k => x0 (ix3 b s k)) x2 x3 x4 d := by
  rw [val_main_v4_apply, expert]
  refine Finset.sum_congr rfl fun f _ => ?_
  rw [lidx_v4, ridx_v4, v3_at]

/-- The first expert's routing weight at (b, s, d): the comparison of the mask word at (b, s) with 0, as a number. -/
theorem v18_at (b : Fin 2) (s : Fin 4096) (d : Fin 1024) :
    val_main_v18 (F := Ideal) x1 (ix3 b s d) = sel (x1 (ix2 b s)) 0#32 := by
  rw [val_main_v18_apply, val_main_v13_apply, val_main_v12_apply, val_main_v11_apply, val_main_v10_apply, val_main_c_apply,
    idx_mask0]
  rfl

/-! ## The second expert -/

theorem v5_at (b : Fin 2) (s : Fin 4096) (f : Fin 3584) :
    val_main_v5 (F := Ideal) x0 x5 (ix3 b s f) = pre (fun k => x0 (ix3 b s k)) x5 f := by
  rw [val_main_v5_apply, pre]
  refine Finset.sum_congr rfl fun k _ => ?_
  rw [lidx_v5, ridx_v5]

theorem v7_at (b : Fin 2) (s : Fin 4096) (f : Fin 3584) :
    val_main_v7 (F := Ideal) x0 x6 (ix3 b s f) = pre (fun k => x0 (ix3 b s k)) x6 f := by
  rw [val_main_v7_apply, pre]
  refine Finset.sum_congr rfl fun k _ => ?_
  rw [lidx_v7, ridx_v7]

theorem v8_at (b : Fin 2) (s : Fin 4096) (f : Fin 3584) :
    val_main_v8 (F := Ideal) x0 x5 x6 (ix3 b s f) = hid (fun k => x0 (ix3 b s k)) x5 x6 f := by
  rw [val_main_v8_apply, val_main_v6_apply, val_main_call1_v5_apply, val_main_call1_v4_apply, val_main_call1_cst_0_apply,
    val_main_call1_v3_apply, val_main_call1_v2_apply, val_main_call1_cst_apply, val_main_call1_v1_apply,
    val_main_call1_v0_apply, logistic_spelt, v5_at, v7_at]
  rfl

theorem v9_at (b : Fin 2) (s : Fin 4096) (d : Fin 1024) :
    val_main_v9 (F := Ideal) x0 x5 x6 x7 (ix3 b s d) = expert (fun k => x0 (ix3 b s k)) x5 x6 x7 d := by
  rw [val_main_v9_apply, expert]
  refine Finset.sum_congr rfl fun f _ => ?_
  rw [lidx_v9, ridx_v9, v8_at]

theorem v20_at (b : Fin 2) (s : Fin 4096) (d : Fin 1024) :
    val_main_v20 (F := Ideal) x1 (ix3 b s d) = sel (x1 (ix2 b s)) 1#32 := by
  rw [val_main_v20_apply, val_main_v17_apply, val_main_v16_apply, val_main_v15_apply, val_main_v14_apply, val_main_c_0_apply,
    idx_mask1]
  rfl

/-! ## The result -/

/-- The reference's result, as a function of the eight argument arrays, is the specification. -/
theorem ref_eq : val_main_v22 (F := Ideal) x0 x1 x2 x3 x4 x5 x6 x7 = moe x0 x1 x2 x3 x4 x5 x6 x7 := by
  funext i
  obtain ⟨b, s, d, rfl⟩ : ∃ (b : Fin 2) (s : Fin 4096) (d : Fin 1024), i = ix3 b s d := ⟨i 0, i 1, i 2, eq_ix3 i⟩
  rw [val_main_v22_apply, val_main_v19_apply, val_main_v21_apply, v4_at, v9_at, v18_at, v20_at]
  rfl

end

end Cert.ReferenceIdeal.RefValue

end
-- ==== Proof.Pieces.lean ====
/-
  What one run of the kernel body leaves behind, as values.

  The body keeps two running sums (one per expert) in two scratch blocks and, at the last hidden tile of a token
  block, writes the masked combination of the two sums to the output block. The frame run records what each
  control case stores as a list of covering stores; read back, each list is one application of the body's
  arithmetic to the input blocks and to what the scratch held before:
    first tile:   sum := (0-block) + this tile's contribution      (the zero store, read back, then the update)
    later tiles:  sum := previous sum + this tile's contribution
    last tile:    the same update, and out := sum₀ · [mask = 0] + sum₁ · [mask = 1] of the UPDATED sums.
  Every lemma holds at any float instance.
-/
import proofs.«177753_j52956946759945_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First tile, expert 0: the zero block is stored, read back, and this tile's contribution added. -/
theorem first_sum0 (c : Dev nD) (i : grid0.Coords) (arg2 : Memref sig .tc .vmem S1024x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S1024x1 .i32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : ¬cond0_1 i) (x0 : Vec F S1024x1024 .bf16) (x1 : Vec F S1024x256 .bf16) (x2 : Vec F S1024x256 .bf16) (x3 : Vec F S256x1024 .bf16) (x4 : Vec F S1024x256 .bf16) (x5 : Vec F S1024x256 .bf16) (x6 : Vec F S256x1024 .bf16) (x7 : Vec F S1024x1 .i32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay6 x0 x1 x2 (k0_pay3 (F := F)) x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  try sl_unfold_words
  rw [View.canon_cons_unit_zero (S := S1024x1024) hz, View.readCov_unit_zero (S := S1024x1024) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x256) hz, View.ld_unit_zero (S := S256x1024) hz, View.ld_unit_zero (S := S1024x1) hz]

/-- First tile, expert 1: the same over its own zero block. -/
theorem first_sum1 (c : Dev nD) (i : grid0.Coords) (arg2 : Memref sig .tc .vmem S1024x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S1024x1 .i32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : ¬cond0_1 i) (x0 : Vec F S1024x1024 .bf16) (x1 : Vec F S1024x256 .bf16) (x2 : Vec F S1024x256 .bf16) (x3 : Vec F S256x1024 .bf16) (x4 : Vec F S1024x256 .bf16) (x5 : Vec F S1024x256 .bf16) (x6 : Vec F S256x1024 .bf16) (x7 : Vec F S1024x1 .i32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay1 (k0_pay7 x0 x4 x5) (k0_pay4 (F := F)) x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  try sl_unfold_words
  rw [View.canon_cons_unit_zero (S := S1024x1024) hz, View.readCov_unit_zero (S := S1024x1024) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x256) hz, View.ld_unit_zero (S := S256x1024) hz, View.ld_unit_zero (S := S1024x1) hz]

/-- A middle tile, expert 0: the previous sum plus this tile's contribution. -/
theorem mid_sum0 (c : Dev nD) (i : grid0.Coords) (arg2 : Memref sig .tc .vmem S1024x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S1024x1 .i32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (x0 : Vec F S1024x1024 .bf16) (x1 : Vec F S1024x256 .bf16) (x2 : Vec F S1024x256 .bf16) (x3 : Vec F S256x1024 .bf16) (x4 : Vec F S1024x256 .bf16) (x5 : Vec F S1024x256 .bf16) (x6 : Vec F S256x1024 .bf16) (x7 : Vec F S1024x1 .i32) (xs0 : Vec F S1024x1024 .f32) (xs1 : Vec F S1024x1024 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay6 x0 x1 x2 xs0 x3 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x256) hz, View.ld_unit_zero (S := S256x1024) hz, View.ld_unit_zero (S := S1024x1) hz]

/-- A middle tile, expert 1. -/
theorem mid_sum1 (c : Dev nD) (i : grid0.Coords) (arg2 : Memref sig .tc .vmem S1024x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S1024x1 .i32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (x0 : Vec F S1024x1024 .bf16) (x1 : Vec F S1024x256 .bf16) (x2 : Vec F S1024x256 .bf16) (x3 : Vec F S256x1024 .bf16) (x4 : Vec F S1024x256 .bf16) (x5 : Vec F S1024x256 .bf16) (x6 : Vec F S256x1024 .bf16) (x7 : Vec F S1024x1 .i32) (xs0 : Vec F S1024x1024 .f32) (xs1 : Vec F S1024x1024 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay1 (k0_pay7 x0 x4 x5) xs1 x6 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x256) hz, View.ld_unit_zero (S := S256x1024) hz, View.ld_unit_zero (S := S1024x1) hz]

/-- The last tile, expert 0: the same update. -/
theorem last_sum0 (c : Dev nD) (i : grid0.Coords) (arg2 : Memref sig .tc .vmem S1024x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S1024x1 .i32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (x0 : Vec F S1024x1024 .bf16) (x1 : Vec F S1024x256 .bf16) (x2 : Vec F S1024x256 .bf16) (x3 : Vec F S256x1024 .bf16) (x4 : Vec F S1024x256 .bf16) (x5 : Vec F S1024x256 .bf16) (x6 : Vec F S256x1024 .bf16) (x7 : Vec F S1024x1 .i32) (xs0 : Vec F S1024x1024 .f32) (xs1 : Vec F S1024x1024 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay6 x0 x1 x2 xs0 x3 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  try sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x256) hz, View.ld_unit_zero (S := S256x1024) hz, View.ld_unit_zero (S := S1024x1) hz]

/-- The last tile, expert 1. -/
theorem last_sum1 (c : Dev nD) (i : grid0.Coords) (arg2 : Memref sig .tc .vmem S1024x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S1024x1 .i32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (x0 : Vec F S1024x1024 .bf16) (x1 : Vec F S1024x256 .bf16) (x2 : Vec F S1024x256 .bf16) (x3 : Vec F S256x1024 .bf16) (x4 : Vec F S1024x256 .bf16) (x5 : Vec F S1024x256 .bf16) (x6 : Vec F S256x1024 .bf16) (x7 : Vec F S1024x1 .i32) (xs0 : Vec F S1024x1024 .f32) (xs1 : Vec F S1024x1024 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay1 (k0_pay7 x0 x4 x5) xs1 x6 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  try sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x256) hz, View.ld_unit_zero (S := S256x1024) hz, View.ld_unit_zero (S := S1024x1) hz]

/-- The last tile's output block: the masked combination of the two UPDATED sums (each read back from its scratch). -/
theorem last_out (c : Dev nD) (i : grid0.Coords) (arg2 : Memref sig .tc .vmem S1024x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S1024x1 .i32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (x0 : Vec F S1024x1024 .bf16) (x1 : Vec F S1024x256 .bf16) (x2 : Vec F S1024x256 .bf16) (x3 : Vec F S256x1024 .bf16) (x4 : Vec F S1024x256 .bf16) (x5 : Vec F S1024x256 .bf16) (x6 : Vec F S256x1024 .bf16) (x7 : Vec F S1024x1 .i32) (xs0 : Vec F S1024x1024 .f32) (xs1 : Vec F S1024x1024 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay2 x7 (k0_pay6 x0 x1 x2 xs0 x3) (k0_pay1 (k0_pay7 x0 x4 x5) xs1 x6) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  try sl_unfold_words
  rw [View.canon_unit_zero hz, View.readCov_unit_zero (S := S1024x1024) _ hz, View.readCov_unit_zero (S := S1024x1024) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x256) hz, View.ld_unit_zero (S := S256x1024) hz, View.ld_unit_zero (S := S1024x1) hz]

end Cert.KernelIdeal.Pieces

end
-- ==== Proof.Steps.lean ====
/-
  What the two running sums and the output block hold after each grid point, one step at a time.

  The frame run names the contents after point t by recursion on t, case by case; with each case's stores read back
  as values this is, at any float instance:
    first tile of a token block:  sum := update (0-block),
    any later tile:               sum := update (the sum after the point before),
    last tile:                    also  out := combine (the two sums just updated),
  where update / combine are the body's arithmetic over the point's input blocks.
-/
import proofs.«177753_j52956946759945_2_alg».proof.Proof.Pieces

set_option maxRecDepth 16384

noncomputable section

namespace Cert.KernelIdeal.Steps

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The first tile of a token block, expert 0: the sum starts from the zero block. -/
theorem at_first0 (c : Dev nD) (t : Fin cfg0.N) (h0 : t.val % 14 = 0) (h1 : ¬t.val % 14 = 13) :
    (outsAt0 m c t.val t.isLt).2.1 = k0_pay6 (iblk m c 0 t) (iblk m c 1 t) (iblk m c 2 t) (k0_pay3 (F := F)) (iblk m c 3 t) := by
  rw [outsAt0_A m c t h0 h1]
  dsimp only
  exact Pieces.first_sum0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- The first tile, expert 1. -/
theorem at_first1 (c : Dev nD) (t : Fin cfg0.N) (h0 : t.val % 14 = 0) (h1 : ¬t.val % 14 = 13) :
    (outsAt0 m c t.val t.isLt).2.2 = k0_pay1 (k0_pay7 (iblk m c 0 t) (iblk m c 4 t) (iblk m c 5 t)) (k0_pay4 (F := F)) (iblk m c 6 t) := by
  rw [outsAt0_A m c t h0 h1]
  dsimp only
  exact Pieces.first_sum1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- A middle tile, expert 0: the sum continues from the point before. -/
theorem at_mid0 (c : Dev nD) (t : Fin cfg0.N) (h0 : ¬t.val % 14 = 0) (h1 : ¬t.val % 14 = 13) :
    (outsAt0 m c t.val t.isLt).2.1 = k0_pay6 (iblk m c 0 t) (iblk m c 1 t) (iblk m c 2 t) (outsAt0 m c (t.val - 1) (Nat.lt_of_le_of_lt (Nat.sub_le _ _) t.isLt)).2.1 (iblk m c 3 t) := by
  rw [outsAt0_B m c t h0 h1]
  dsimp only
  exact Pieces.mid_sum0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2

/-- A middle tile, expert 1. -/
theorem at_mid1 (c : Dev nD) (t : Fin cfg0.N) (h0 : ¬t.val % 14 = 0) (h1 : ¬t.val % 14 = 13) :
    (outsAt0 m c t.val t.isLt).2.2 = k0_pay1 (k0_pay7 (iblk m c 0 t) (iblk m c 4 t) (iblk m c 5 t)) (outsAt0 m c (t.val - 1) (Nat.lt_of_le_of_lt (Nat.sub_le _ _) t.isLt)).2.2 (iblk m c 6 t) := by
  rw [outsAt0_B m c t h0 h1]
  dsimp only
  exact Pieces.mid_sum1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2

/-- The last tile, expert 0: the sum continues from the point before. -/
theorem at_last0 (c : Dev nD) (t : Fin cfg0.N) (h0 : ¬t.val % 14 = 0) (h1 : t.val % 14 = 13) :
    (outsAt0 m c t.val t.isLt).2.1 = k0_pay6 (iblk m c 0 t) (iblk m c 1 t) (iblk m c 2 t) (outsAt0 m c (t.val - 1) (Nat.lt_of_le_of_lt (Nat.sub_le _ _) t.isLt)).2.1 (iblk m c 3 t) := by
  rw [outsAt0_C m c t h0 h1]
  dsimp only
  exact Pieces.last_sum0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2

/-- The last tile, expert 1. -/
theorem at_last1 (c : Dev nD) (t : Fin cfg0.N) (h0 : ¬t.val % 14 = 0) (h1 : t.val % 14 = 13) :
    (outsAt0 m c t.val t.isLt).2.2 = k0_pay1 (k0_pay7 (iblk m c 0 t) (iblk m c 4 t) (iblk m c 5 t)) (outsAt0 m c (t.val - 1) (Nat.lt_of_le_of_lt (Nat.sub_le _ _) t.isLt)).2.2 (iblk m c 6 t) := by
  rw [outsAt0_C m c t h0 h1]
  dsimp only
  exact Pieces.last_sum1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2

/-- The last tile's output block: the masked combination of the two sums as just updated. -/
theorem at_last_out_prev (c : Dev nD) (t : Fin cfg0.N) (h0 : ¬t.val % 14 = 0) (h1 : t.val % 14 = 13) :
    (outsAt0 m c t.val t.isLt).1 = k0_pay2 (iblk m c 7 t) (k0_pay6 (iblk m c 0 t) (iblk m c 1 t) (iblk m c 2 t) (outsAt0 m c (t.val - 1) (Nat.lt_of_le_of_lt (Nat.sub_le _ _) t.isLt)).2.1 (iblk m c 3 t)) (k0_pay1 (k0_pay7 (iblk m c 0 t) (iblk m c 4 t) (iblk m c 5 t)) (outsAt0 m c (t.val - 1) (Nat.lt_of_le_of_lt (Nat.sub_le _ _) t.isLt)).2.2 (iblk m c 6 t)) := by
  rw [outsAt0_C m c t h0 h1]
  dsimp only
  exact Pieces.last_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2

/-- The same in terms of the sums after this very point. -/
theorem at_last_out (c : Dev nD) (t : Fin cfg0.N) (h0 : ¬t.val % 14 = 0) (h1 : t.val % 14 = 13) :
    (outsAt0 m c t.val t.isLt).1 = k0_pay2 (iblk m c 7 t) (outsAt0 m c t.val t.isLt).2.1 (outsAt0 m c t.val t.isLt).2.2 := by
  rw [at_last_out_prev m c t h0 h1, ← at_last0 m c t h0 h1, ← at_last1 m c t h0 h1]

end Cert.KernelIdeal.Steps

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.Payload.lean ====
/-
  The kernel body's arithmetic read at an index, on the extended reals.

  One grid step of the fused layer holds a 1024 × 1024 block X of tokens, a 1024 × 256 tile of an expert's gate and up
  weights Wg, Wu and the matching 256 × 1024 tile of its down weights Wd. The values it stores are, at (r, d) or (r, f):

    the tile's gated hidden units     h (r, f) = (g · logistic g) · u,   g = ∑ k, X (r, k) · Wg (k, f),  u = ∑ k, X (r, k) · Wu (k, f)
    an accumulator step               acc (r, d) + ∑ f, h (r, f) · Wd (f, d)
    the cleared accumulators          0
    the routed combination            y₀ (r, d) · [m r = 0] + y₁ (r, d) · [m r = 1]

  On the extended reals the narrowing of the hidden units to a shorter format is the identity and a shape cast between
  equal shapes moves nothing, so each stored value is exactly the expression above; the matrix products are plain
  (rows by columns) and are read off as sums over the contracted coordinate.
-/
import proofs.«177753_j52956946759945_2_alg».proof.Proof.Gen.KernelIdeal.Skeleton
import proofs.«177753_j52956946759945_2_alg».proof.Proof.Spec
import proofs.«177753_j52956946759945_2_alg».proof.Proof.LibMatmulNN
import proofs.«177753_j52956946759945_2_alg».proof.Proof.LibColumn
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The two matrix products are plain ones -/

/-- The tokens-by-weights product contracts the tokens' columns with the weights' rows. -/
theorem dotXW_plain : dot_S1024x1024_S1024x256_S1024x256_1_0_0_1_n_n = DotDims.plain 1024 1024 256 := rfl

/-- The hidden-by-down product likewise. -/
theorem dotHD_plain : dot_S1024x256_S256x1024_S1024x1024_1_0_0_1_n_n = DotDims.plain 1024 256 1024 := rfl

/-- X · W into the zero accumulator, at (r, f): the row of X against the column of W. -/
theorem matXW_apply (x : FVec Ideal S1024x1024 .bf16) (w : FVec Ideal S1024x256 .bf16) (r : Fin 1024) (f : Fin 256) :
    matmul dot_S1024x1024_S1024x256_S1024x256_1_0_0_1_n_n none x w (constant (F := Ideal) S1024x256 .f32 0x00000000#32) (ix2 r f)
      = ∑ k : Fin 1024, x (ix2 r k) * w (ix2 k f) := by
  rw [dotXW_plain]
  exact MatmulNN.matmul_zero_apply none x w r f

/-- H · Wd into the zero accumulator, at (r, d): the row of H against the column of Wd. -/
theorem matHD_apply (h : FVec Ideal S1024x256 .bf16) (w : FVec Ideal S256x1024 .bf16) (r d : Fin 1024) :
    matmul dot_S1024x256_S256x1024_S1024x1024_1_0_0_1_n_n none h w (constant (F := Ideal) S1024x1024 .f32 0x00000000#32) (ix2 r d)
      = ∑ f : Fin 256, h (ix2 r f) * w (ix2 f d) := by
  rw [dotHD_plain]
  exact MatmulNN.matmul_zero_apply none h w r d

/-- The logistic function is applied entry by entry. -/
theorem logistic_apply {s : Shape} {φ : FTy} (x : FVec Ideal s φ) (i : s.Idx) : logistic x i = Ideal.logistic (x i) := rfl

/-! ## The gated hidden units -/

/-- The tile's hidden units before narrowing, as the body computes them. -/
def hidTile (x : FVec Ideal S1024x1024 .bf16) (wg wu : FVec Ideal S1024x256 .bf16) : FVec Ideal S1024x256 .bf16 :=
  truncf .bf16
    (mulf
      (mulf (matmul dot_S1024x1024_S1024x256_S1024x256_1_0_0_1_n_n none x wg (constant (F := Ideal) S1024x256 .f32 0x00000000#32))
        (logistic (matmul dot_S1024x1024_S1024x256_S1024x256_1_0_0_1_n_n none x wg (constant (F := Ideal) S1024x256 .f32 0x00000000#32))))
      (matmul dot_S1024x1024_S1024x256_S1024x256_1_0_0_1_n_n none x wu (constant (F := Ideal) S1024x256 .f32 0x00000000#32)))
    bitsLt_bf16_f32

/-- At (r, f): silu of the gate projection times the up projection. -/
theorem hidTile_apply (x : FVec Ideal S1024x1024 .bf16) (wg wu : FVec Ideal S1024x256 .bf16) (r : Fin 1024) (f : Fin 256) :
    hidTile x wg wu (ix2 r f)
      = ((∑ k : Fin 1024, x (ix2 r k) * wg (ix2 k f)) * Ideal.logistic (∑ k : Fin 1024, x (ix2 r k) * wg (ix2 k f)))
          * (∑ k : Fin 1024, x (ix2 r k) * wu (ix2 k f)) := by
  unfold hidTile
  rw [truncf_apply, mulf_apply, mulf_apply, logistic_apply, matXW_apply, matXW_apply]

/-! ## The payloads -/

/-- The tokens pass through their shape cast unchanged. -/
theorem pay5_eq (v3 : Vec Ideal S1024x1024 .bf16) : k0_pay5 (F := Ideal) v3 = v3 :=
  shapeCast_self v3 _

/-- The first accumulator is cleared to zero. -/
theorem pay3_apply (r d : Fin 1024) : k0_pay3 (F := Ideal) (ix2 r d) = 0 := by
  unfold k0_pay3
  rw [shapeCast_self]
  exact Ideal.ofBits_zero_f32

/-- The second accumulator is cleared to zero. -/
theorem pay4_apply (r d : Fin 1024) : k0_pay4 (F := Ideal) (ix2 r d) = 0 := by
  unfold k0_pay4
  rw [shapeCast_self]
  exact Ideal.ofBits_zero_f32

/-- The second expert's hidden units of the tile. -/
theorem pay7_eq (v3 : Vec Ideal S1024x1024 .bf16) (v23 v28 : Vec Ideal S1024x256 .bf16) :
    k0_pay7 v3 v23 v28 = hidTile v3 v23 v28 := by
  unfold k0_pay7 hidTile
  simp only [pay5_eq, shapeCast_self]

theorem pay7_apply (v3 : Vec Ideal S1024x1024 .bf16) (v23 v28 : Vec Ideal S1024x256 .bf16) (r : Fin 1024) (f : Fin 256) :
    k0_pay7 v3 v23 v28 (ix2 r f)
      = ((∑ k : Fin 1024, v3 (ix2 r k) * v23 (ix2 k f)) * Ideal.logistic (∑ k : Fin 1024, v3 (ix2 r k) * v23 (ix2 k f)))
          * (∑ k : Fin 1024, v3 (ix2 r k) * v28 (ix2 k f)) := by
  rw [pay7_eq]
  exact hidTile_apply v3 v23 v28 r f

/-- The first expert's accumulator step. -/
theorem pay6_eq (v3 : Vec Ideal S1024x1024 .bf16) (v5 v10 : Vec Ideal S1024x256 .bf16) (v15 : Vec Ideal S1024x1024 .f32)
    (v16 : Vec Ideal S256x1024 .bf16) :
    k0_pay6 v3 v5 v10 v15 v16
      = addf v15 (matmul (φ₂ := .bf16) dot_S1024x256_S256x1024_S1024x1024_1_0_0_1_n_n none (hidTile v3 v5 v10) v16
          (constant (F := Ideal) S1024x1024 .f32 0x00000000#32)) := by
  unfold k0_pay6 hidTile
  simp only [pay5_eq, shapeCast_self]

theorem pay6_apply (v3 : Vec Ideal S1024x1024 .bf16) (v5 v10 : Vec Ideal S1024x256 .bf16) (v15 : Vec Ideal S1024x1024 .f32)
    (v16 : Vec Ideal S256x1024 .bf16) (r d : Fin 1024) :
    k0_pay6 v3 v5 v10 v15 v16 (ix2 r d)
      = v15 (ix2 r d) + ∑ f : Fin 256,
          (((∑ k : Fin 1024, v3 (ix2 r k) * v5 (ix2 k f)) * Ideal.logistic (∑ k : Fin 1024, v3 (ix2 r k) * v5 (ix2 k f)))
            * (∑ k : Fin 1024, v3 (ix2 r k) * v10 (ix2 k f))) * v16 (ix2 f d) := by
  rw [pay6_eq, addf_apply, matHD_apply]
  refine congrArg (v15 (ix2 r d) + ·) (Finset.sum_congr rfl fun f _ => ?_)
  rw [hidTile_apply]

/-- The second expert's accumulator step, from the hidden units the loop carries. -/
theorem pay1_eq (v32 : FVec Ideal S1024x256 .bf16) (v33 : Vec Ideal S1024x1024 .f32) (v34 : Vec Ideal S256x1024 .bf16) :
    k0_pay1 v32 v33 v34
      = addf v33 (matmul (φ₂ := .bf16) dot_S1024x256_S256x1024_S1024x1024_1_0_0_1_n_n none v32 v34
          (constant (F := Ideal) S1024x1024 .f32 0x00000000#32)) := by
  unfold k0_pay1
  simp only [shapeCast_self]

theorem pay1_apply (v32 : FVec Ideal S1024x256 .bf16) (v33 : Vec Ideal S1024x1024 .f32) (v34 : Vec Ideal S256x1024 .bf16)
    (r d : Fin 1024) :
    k0_pay1 v32 v33 v34 (ix2 r d) = v33 (ix2 r d) + ∑ f : Fin 256, v32 (ix2 r f) * v34 (ix2 f d) := by
  rw [pay1_eq, addf_apply, matHD_apply]

/-! ## The routed combination -/

/-- A one-bit word widened to 32 bits and read as a signed integer is the bit, 0 or 1. -/
theorem toInt_setWidth_bit (b : BitVec 1) : (b.setWidth 32).toInt = (b.toNat : ℤ) := by
  revert b; decide

/-- The comparison's bit, widened and converted to a float, is the routing weight. -/
theorem sitofp_cmp_eq_sel (v c : BitVec 32) :
    FloatOps.sitofp (F := Ideal) .f32 ((IntOp.cmpi .eq v c).setWidth 32) = Cert.MoeSpec.sel v c := by
  show (((((IntOp.cmpi .eq v c).setWidth 32).toInt : ℝ)) : EReal) = _
  rw [toInt_setWidth_bit, Int.cast_natCast]
  rfl

/-- The routing weight of a token row repeated along the columns. -/
theorem weight_apply (v44 : Vec Ideal S1024x1 .i32) (c : BitVec 32) (r d : Fin 1024) :
    broadcastTo S1024x1024
        (sitofp (F := Ideal) .f32 (extui 32 (cmpi .eq (shapeCast S1024x1 v44 shapeCasts_S1024x1_S1024x1) (broadcast S1024x1 c)) natLt_1_32))
        broadcasts_S1024x1_S1024x1024 (ix2 r d)
      = Cert.MoeSpec.sel (v44 (ix2 r (0 : Fin 1))) c := by
  rw [Cert.Lib.Column.broadcastTo_a1_ab_apply, shapeCast_self, sitofp_apply, extui_apply]
  exact sitofp_cmp_eq_sel _ _

theorem pay2_apply (v44 : Vec Ideal S1024x1 .i32) (v54 v57 : Vec Ideal S1024x1024 .f32) (r d : Fin 1024) :
    k0_pay2 v44 v54 v57 (ix2 r d)
      = v54 (ix2 r d) * Cert.MoeSpec.sel (v44 (ix2 r (0 : Fin 1))) 0#32
        + v57 (ix2 r d) * Cert.MoeSpec.sel (v44 (ix2 r (0 : Fin 1))) 1#32 := by
  unfold k0_pay2
  rw [addf_apply, mulf_apply, mulf_apply, weight_apply, weight_apply]

end Cert.KernelIdeal.Payload

end
-- ==== Proof.LibRowsMerge.lean ====
/-
  Merging the two leading axes of a three-axis array into one axis of rows, and splitting them again, read at an
  index; any extents and element type.

  A shape cast keeps every element at its row-major position. So an [a, b, c] array viewed as [a·b, c] has at
  (r, k) the element (i, j, k) whenever r = b·i + j, the same holds the other way round, and an [a, b] array viewed
  as an [a·b, 1] column has at (r, 0) the element (i, j).
-/
import Idealize.ShloMosaic.Lib.ValueIdx
import Idealize.ShloMosaic.Lib.Pipeline.Value

namespace Cert.Lib.RowsMerge

open Idealize.ShloMosaic Idealize.ShloMosaic.ValueIdx

variable {α : Type}

/-- [a, b, c] viewed as [n, c] rows: row r = b·i + j holds the elements (i, j, ·). -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = b * i.val + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr, Nat.mul_comm b i.val])

/-- [n, c] rows viewed as [a, b, c]: the element (i, j, k) is row r = b·i + j, column k. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = b * i.val + j.val) : shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr, Nat.mul_comm b i.val])

/-- [a, b] viewed as an [n, 1] column: entry r = b·i + j is the element (i, j). -/
theorem mergeCol_apply {a b n : ℕ} (x : (⟨2, ![a, b]⟩ : Shape).Idx → α)
    (h : (⟨2, ![a, b]⟩ : Shape).ShapeCasts ⟨2, ![n, 1]⟩) (i : Fin a) (j : Fin b) (r : Fin n) (u : Fin 1)
    (hr : r.val = b * i.val + j.val) : shapeCast ⟨2, ![n, 1]⟩ x h (ix2 r u) = x (ix2 i j) :=
  shapeCast_apply x h _ _ (by
    have hu : u.val = 0 := by omega
    rw [Shape.rowMajor_val_two, Shape.rowMajor_val_two]
    show i.val * b + j.val = r.val * 1 + u.val
    rw [hr, hu, Nat.mul_comm b i.val, Nat.mul_one, Nat.add_zero])

end Cert.Lib.RowsMerge
-- ==== Proof.Blocks.lean ====
/-
  The input blocks of the kernel read at an index, and the arrays the region finds, in terms of the argument arrays.

  Grid point t = 14·i + j is token block i (1024 tokens) and hidden tile j (256 hidden units). Window 0 (the tokens) and
  window 7 (the mask column) hold rows 1024·i + r; the gate / up weight windows hold columns 256·j + f; the down weight
  windows hold rows 256·j + f. Before the region the host flattens the tokens [2, 4096, 1024] to rows 4096·b + s and the
  mask [2, 4096] to a column, and changes the float format of the tokens and weights — the identity on the extended
  reals.
-/
import proofs.«177753_j52956946759945_2_alg».proof.Proof.Gen.KernelIdeal.Frame
import proofs.«177753_j52956946759945_2_alg».proof.Proof.LibRowsMerge
import Idealize.ShloMosaic.Lib.Pipeline.Value
import Idealize.ShloMosaic.Lib.StableHlo.Run
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic Idealize.ShloMosaic.ValueIdx Idealize.SL.Sem

variable (m : (ℓ : Loc nD τ sig) → Buf (Elt Ideal) ℓ)

/-! ## The arrays the region finds -/

/-- The tokens as the region finds them: the argument flattened to rows, its float format then changed. -/
theorem V_v1_eq (c : Dev nD) : @Eq (FVec Ideal S8192x1024 .bf16) (V m c main_v1)
    (truncf .bf16 (shapeCast S8192x1024 (m ((c : Thread nD τ).loc main_arg0) : FVec Ideal S2x4096x1024 .f32) shapeCasts_S2x4096x1024_S8192x1024) bitsLt_bf16_f32) := by
  show StableHlo.after hostOps0 (fun b => m (c, b)) (Proc.devRef .tc main_v1) = _
  after_results
  rfl

/-- The flattened tokens: row 4096·b + s is token (b, s). -/
theorem V_tokens (c : Dev nD) (R : Fin 8192) (k : Fin 1024) (b : Fin 2) (s : Fin 4096) (hR : R.val = 4096 * b.val + s.val) :
    (V m c main_v1 : S8192x1024.Idx → EReal) (ix2 R k) = (m ((c : Thread nD τ).loc main_arg0) : S2x4096x1024.Idx → EReal) (ix3 b s k) := by
  have e := V_v1_eq m c
  show (V m c main_v1 : FVec Ideal S8192x1024 .bf16) (ix2 R k) = _
  rw [e]
  exact Cert.Lib.RowsMerge.merge_apply (m ((c : Thread nD τ).loc main_arg0) : FVec Ideal S2x4096x1024 .f32) shapeCasts_S2x4096x1024_S8192x1024 b s k R hR

/-- The mask as the region finds it: the argument viewed as a column. -/
theorem V_v8_eq (c : Dev nD) : @Eq (IVec S8192x1 32) (V m c main_v8)
    (shapeCast S8192x1 (m ((c : Thread nD τ).loc main_arg1) : IVec S2x4096 32) shapeCasts_S2x4096_S8192x1) := by
  show StableHlo.after hostOps0 (fun b => m (c, b)) (Proc.devRef .tc main_v8) = _
  after_results
  rfl

/-- The mask column: entry 4096·b + s is the mask word of token (b, s). -/
theorem V_mask (c : Dev nD) (R : Fin 8192) (b : Fin 2) (s : Fin 4096) (hR : R.val = 4096 * b.val + s.val) :
    (V m c main_v8 : S8192x1.Idx → BitVec 32) (ix2 R (0 : Fin 1)) = (m ((c : Thread nD τ).loc main_arg1) : S2x4096.Idx → BitVec 32) (ix2 b s) := by
  have e := V_v8_eq m c
  show (V m c main_v8 : IVec S8192x1 32) (ix2 R (0 : Fin 1)) = _
  rw [e]
  exact Cert.Lib.RowsMerge.mergeCol_apply (m ((c : Thread nD τ).loc main_arg1) : IVec S2x4096 32) shapeCasts_S2x4096_S8192x1 b s R (0 : Fin 1) hR

/-- The six weight arrays reach the region unchanged as extended reals. -/
theorem V_wg0 (c : Dev nD) : (V m c main_v2 : S1024x3584.Idx → EReal) = (m ((c : Thread nD τ).loc main_arg2) : S1024x3584.Idx → EReal) := by
  show StableHlo.after hostOps0 (fun b => m (c, b)) (Proc.devRef .tc main_v2) = _
  after_results
  rfl
theorem V_wu0 (c : Dev nD) : (V m c main_v3 : S1024x3584.Idx → EReal) = (m ((c : Thread nD τ).loc main_arg3) : S1024x3584.Idx → EReal) := by
  show StableHlo.after hostOps0 (fun b => m (c, b)) (Proc.devRef .tc main_v3) = _
  after_results
  rfl
theorem V_wd0 (c : Dev nD) : (V m c main_v4 : S3584x1024.Idx → EReal) = (m ((c : Thread nD τ).loc main_arg4) : S3584x1024.Idx → EReal) := by
  show StableHlo.after hostOps0 (fun b => m (c, b)) (Proc.devRef .tc main_v4) = _
  after_results
  rfl
theorem V_wg1 (c : Dev nD) : (V m c main_v5 : S1024x3584.Idx → EReal) = (m ((c : Thread nD τ).loc main_arg5) : S1024x3584.Idx → EReal) := by
  show StableHlo.after hostOps0 (fun b => m (c, b)) (Proc.devRef .tc main_v5) = _
  after_results
  rfl
theorem V_wu1 (c : Dev nD) : (V m c main_v6 : S1024x3584.Idx → EReal) = (m ((c : Thread nD τ).loc main_arg6) : S1024x3584.Idx → EReal) := by
  show StableHlo.after hostOps0 (fun b => m (c, b)) (Proc.devRef .tc main_v6) = _
  after_results
  rfl
theorem V_wd1 (c : Dev nD) : (V m c main_v7 : S3584x1024.Idx → EReal) = (m ((c : Thread nD τ).loc main_arg7) : S3584x1024.Idx → EReal) := by
  show StableHlo.after hostOps0 (fun b => m (c, b)) (Proc.devRef .tc main_v7) = _
  after_results
  rfl

/-! ## The windows' blocks at a grid point -/

/-- Which block each window holds at point t: the token and mask windows hold block t / 14 of the rows, the gate / up
    weight windows block t % 14 of the columns, the down weight windows block t % 14 of the rows. Decided over the
    112 points of the grid. -/
theorem idx0 : ∀ t : Fin cfg0.N, win0_0.index t (0 : Fin 2) = t.val / 14 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 14 :=
  (by decide +kernel : ∀ t : Fin grid0.N, _)
theorem idx2 : ∀ t : Fin cfg0.N, win0_2.index t (0 : Fin 2) = 0 ∧ win0_2.index t (1 : Fin 2) = t.val % 14 :=
  (by decide +kernel : ∀ t : Fin grid0.N, _)
theorem idx3 : ∀ t : Fin cfg0.N, win0_3.index t (0 : Fin 2) = t.val % 14 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val % 14 :=
  (by decide +kernel : ∀ t : Fin grid0.N, _)
theorem idx5 : ∀ t : Fin cfg0.N, win0_5.index t (0 : Fin 2) = 0 ∧ win0_5.index t (1 : Fin 2) = t.val % 14 :=
  (by decide +kernel : ∀ t : Fin grid0.N, _)
theorem idx6 : ∀ t : Fin cfg0.N, win0_6.index t (0 : Fin 2) = t.val % 14 ∧ win0_6.index t (1 : Fin 2) = 0 :=
  (by decide +kernel : ∀ t : Fin grid0.N, _)
theorem idx7 : ∀ t : Fin cfg0.N, win0_7.index t (0 : Fin 2) = t.val / 14 ∧ win0_7.index t (1 : Fin 2) = 0 :=
  (by decide +kernel : ∀ t : Fin grid0.N, _)

/-- The token block of point t: its row r is row 1024·(t / 14) + r of the flattened tokens. -/
theorem blk_tokens (c : Dev nD) (t : Fin cfg0.N) (r k : Fin 1024) (R : Fin 8192) (hR : R.val = 1024 * (t.val / 14) + r.val) :
    (iblk m c 0 t : S1024x1024.Idx → EReal) (ix2 r k) = (V m c main_v1 : S8192x1024.Idx → EReal) (ix2 R k) := by
  unfold iblk
  rw [View.read_apply]
  show V m c main_v1 _ = V m c main_v1 _
  congr 1
  funext a
  apply Fin.ext
  match a with
  | ⟨0, _⟩ => show win0_0.index t (0 : Fin 2) * 1024 + 1 * r.val = R.val; rw [(idx0 t).1, hR]; omega
  | ⟨1, _⟩ => show win0_0.index t (1 : Fin 2) * 1024 + 1 * k.val = k.val; rw [(idx0 t).2]; omega

/-- The gate / up weight blocks of point t: column f is column 256·(t % 14) + f of the weight array. -/
theorem blk_wg0 (c : Dev nD) (t : Fin cfg0.N) (k : Fin 1024) (f : Fin 256) (Fh : Fin 3584) (hF : Fh.val = 256 * (t.val % 14) + f.val) :
    (iblk m c 1 t : S1024x256.Idx → EReal) (ix2 k f) = (V m c main_v2 : S1024x3584.Idx → EReal) (ix2 k Fh) := by
  unfold iblk
  rw [View.read_apply]
  show V m c main_v2 _ = V m c main_v2 _
  congr 1
  funext a
  apply Fin.ext
  match a with
  | ⟨0, _⟩ => show win0_1.index t (0 : Fin 2) * 1024 + 1 * k.val = k.val; rw [(idx1 t).1]; omega
  | ⟨1, _⟩ => show win0_1.index t (1 : Fin 2) * 256 + 1 * f.val = Fh.val; rw [(idx1 t).2, hF]; omega
theorem blk_wu0 (c : Dev nD) (t : Fin cfg0.N) (k : Fin 1024) (f : Fin 256) (Fh : Fin 3584) (hF : Fh.val = 256 * (t.val % 14) + f.val) :
    (iblk m c 2 t : S1024x256.Idx → EReal) (ix2 k f) = (V m c main_v3 : S1024x3584.Idx → EReal) (ix2 k Fh) := by
  unfold iblk
  rw [View.read_apply]
  show V m c main_v3 _ = V m c main_v3 _
  congr 1
  funext a
  apply Fin.ext
  match a with
  | ⟨0, _⟩ => show win0_2.index t (0 : Fin 2) * 1024 + 1 * k.val = k.val; rw [(idx2 t).1]; omega
  | ⟨1, _⟩ => show win0_2.index t (1 : Fin 2) * 256 + 1 * f.val = Fh.val; rw [(idx2 t).2, hF]; omega
theorem blk_wg1 (c : Dev nD) (t : Fin cfg0.N) (k : Fin 1024) (f : Fin 256) (Fh : Fin 3584) (hF : Fh.val = 256 * (t.val % 14) + f.val) :
    (iblk m c 4 t : S1024x256.Idx → EReal) (ix2 k f) = (V m c main_v5 : S1024x3584.Idx → EReal) (ix2 k Fh) := by
  unfold iblk
  rw [View.read_apply]
  show V m c main_v5 _ = V m c main_v5 _
  congr 1
  funext a
  apply Fin.ext
  match a with
  | ⟨0, _⟩ => show win0_4.index t (0 : Fin 2) * 1024 + 1 * k.val = k.val; rw [(idx4 t).1]; omega
  | ⟨1, _⟩ => show win0_4.index t (1 : Fin 2) * 256 + 1 * f.val = Fh.val; rw [(idx4 t).2, hF]; omega
theorem blk_wu1 (c : Dev nD) (t : Fin cfg0.N) (k : Fin 1024) (f : Fin 256) (Fh : Fin 3584) (hF : Fh.val = 256 * (t.val % 14) + f.val) :
    (iblk m c 5 t : S1024x256.Idx → EReal) (ix2 k f) = (V m c main_v6 : S1024x3584.Idx → EReal) (ix2 k Fh) := by
  unfold iblk
  rw [View.read_apply]
  show V m c main_v6 _ = V m c main_v6 _
  congr 1
  funext a
  apply Fin.ext
  match a with
  | ⟨0, _⟩ => show win0_5.index t (0 : Fin 2) * 1024 + 1 * k.val = k.val; rw [(idx5 t).1]; omega
  | ⟨1, _⟩ => show win0_5.index t (1 : Fin 2) * 256 + 1 * f.val = Fh.val; rw [(idx5 t).2, hF]; omega

/-- The down weight blocks of point t: row f is row 256·(t % 14) + f of the weight array. -/
theorem blk_wd0 (c : Dev nD) (t : Fin cfg0.N) (f : Fin 256) (d : Fin 1024) (Fh : Fin 3584) (hF : Fh.val = 256 * (t.val % 14) + f.val) :
    (iblk m c 3 t : S256x1024.Idx → EReal) (ix2 f d) = (V m c main_v4 : S3584x1024.Idx → EReal) (ix2 Fh d) := by
  unfold iblk
  rw [View.read_apply]
  show V m c main_v4 _ = V m c main_v4 _
  congr 1
  funext a
  apply Fin.ext
  match a with
  | ⟨0, _⟩ => show win0_3.index t (0 : Fin 2) * 256 + 1 * f.val = Fh.val; rw [(idx3 t).1, hF]; omega
  | ⟨1, _⟩ => show win0_3.index t (1 : Fin 2) * 1024 + 1 * d.val = d.val; rw [(idx3 t).2]; omega
theorem blk_wd1 (c : Dev nD) (t : Fin cfg0.N) (f : Fin 256) (d : Fin 1024) (Fh : Fin 3584) (hF : Fh.val = 256 * (t.val % 14) + f.val) :
    (iblk m c 6 t : S256x1024.Idx → EReal) (ix2 f d) = (V m c main_v7 : S3584x1024.Idx → EReal) (ix2 Fh d) := by
  unfold iblk
  rw [View.read_apply]
  show V m c main_v7 _ = V m c main_v7 _
  congr 1
  funext a
  apply Fin.ext
  match a with
  | ⟨0, _⟩ => show win0_6.index t (0 : Fin 2) * 256 + 1 * f.val = Fh.val; rw [(idx6 t).1, hF]; omega
  | ⟨1, _⟩ => show win0_6.index t (1 : Fin 2) * 1024 + 1 * d.val = d.val; rw [(idx6 t).2]; omega

/-- The mask block of point t: entry r is entry 1024·(t / 14) + r of the mask column. -/
theorem blk_mask (c : Dev nD) (t : Fin cfg0.N) (r : Fin 1024) (R : Fin 8192) (hR : R.val = 1024 * (t.val / 14) + r.val) :
    (iblk m c 7 t : S1024x1.Idx → BitVec 32) (ix2 r (0 : Fin 1)) = (V m c main_v8 : S8192x1.Idx → BitVec 32) (ix2 R (0 : Fin 1)) := by
  unfold iblk
  rw [View.read_apply]
  show V m c main_v8 _ = V m c main_v8 _
  congr 1
  funext a
  apply Fin.ext
  match a with
  | ⟨0, _⟩ => show win0_7.index t (0 : Fin 2) * 1024 + 1 * r.val = R.val; rw [(idx7 t).1, hR]; omega
  | ⟨1, _⟩ => show win0_7.index t (1 : Fin 2) * 1 + 1 * (0 : Fin 1).val = (0 : Fin 1).val; rw [(idx7 t).2]; rfl

end Cert.KernelIdeal.Blocks

end
-- ==== Proof.TileAlg.lean ====
/-
  One hidden tile's contribution, computed from blocks, is the specification's tile term.

  At a grid point the kernel sees a token block, a 256-column block of each of the gate and up weights and a
  256-row block of the down weights. If the token block's row is the token row x, and the weight blocks are tile j of
  the whole weight arrays (column / row 256·j + f), then the block computation
      ∑ f < 256, ((g f · logistic (g f)) · u f) · Wd_blk (f, d),   g f = ∑ k, x_blk (r, k) · Wg_blk (k, f),  u f likewise,
  is the specification's `tileTermN x Wg Wu Wd d j`: the same sums over the same entries.
-/
import proofs.«177753_j52956946759945_2_alg».proof.Proof.Spec

noncomputable section

open scoped BigOperators

namespace Cert.MoeSpec

open Idealize.ShloMosaic Idealize.ShloMosaic.ValueIdx Cert.Lib.TileSum

theorem tile_of_blocks (xb : (⟨2, ![1024, 1024]⟩ : Shape).Idx → EReal) (gb ub : (⟨2, ![1024, 256]⟩ : Shape).Idx → EReal)
    (db : (⟨2, ![256, 1024]⟩ : Shape).Idx → EReal) (x : Fin 1024 → EReal)
    (wg wu : FVec Ideal ⟨2, ![1024, 3584]⟩ .f32) (wd : FVec Ideal ⟨2, ![3584, 1024]⟩ .f32)
    (r d : Fin 1024) (j : ℕ) (hj : j < 14)
    (hx : ∀ k : Fin 1024, xb (ix2 r k) = x k)
    (hg : ∀ (k : Fin 1024) (f : Fin 256), gb (ix2 k f) = wg (ix2 k (tileRow tiles ⟨j, hj⟩ f)))
    (hu : ∀ (k : Fin 1024) (f : Fin 256), ub (ix2 k f) = wu (ix2 k (tileRow tiles ⟨j, hj⟩ f)))
    (hd : ∀ f : Fin 256, db (ix2 f d) = wd (ix2 (tileRow tiles ⟨j, hj⟩ f) d)) :
    (∑ f : Fin 256, (((∑ k : Fin 1024, xb (ix2 r k) * gb (ix2 k f)) * Ideal.logistic (∑ k : Fin 1024, xb (ix2 r k) * gb (ix2 k f)))
        * (∑ k : Fin 1024, xb (ix2 r k) * ub (ix2 k f))) * db (ix2 f d))
      = tileTermN x wg wu wd d j := by
  rw [tileTermN, dif_pos hj]
  unfold tileTerm hid pre
  simp only [hx, hg, hu, hd]

end Cert.MoeSpec

end
-- ==== Proof.Arrays.lean ====
/-
  Names for the arrays the region finds, as plain functions into the extended reals, and the region's output array
  by rows: row R, column d holds
      expert₀ (token row R) d · [mask R = 0] + expert₁ (token row R) d · [mask R = 1].
-/
import proofs.«177753_j52956946759945_2_alg».proof.Proof.Gen.KernelIdeal.Frame
import proofs.«177753_j52956946759945_2_alg».proof.Proof.Spec

noncomputable section

namespace Cert.KernelIdeal.Arrays

open Cert.KernelIdeal Cert.KernelIdeal.Gen
open Idealize.ShloMosaic Idealize.ShloMosaic.TcCoe Idealize.ShloMosaic.ValueIdx Idealize.SL.Sem
open Cert.MoeSpec

variable (m : (ℓ : Loc nD τ sig) → Buf (Elt Ideal) ℓ)

/-- The arrays the region finds, as plain functions into the extended reals. -/
abbrev X (c : Dev nD) : S8192x1024.Idx → EReal := V m c main_v1
abbrev Wg0 (c : Dev nD) : FVec Ideal ⟨2, ![1024, 3584]⟩ .f32 := V m c main_v2
abbrev Wu0 (c : Dev nD) : FVec Ideal ⟨2, ![1024, 3584]⟩ .f32 := V m c main_v3
abbrev Wd0 (c : Dev nD) : FVec Ideal ⟨2, ![3584, 1024]⟩ .f32 := V m c main_v4
abbrev Wg1 (c : Dev nD) : FVec Ideal ⟨2, ![1024, 3584]⟩ .f32 := V m c main_v5
abbrev Wu1 (c : Dev nD) : FVec Ideal ⟨2, ![1024, 3584]⟩ .f32 := V m c main_v6
abbrev Wd1 (c : Dev nD) : FVec Ideal ⟨2, ![3584, 1024]⟩ .f32 := V m c main_v7
abbrev Mk (c : Dev nD) : S8192x1.Idx → BitVec 32 := V m c main_v8

/-- Token row `R` of the flattened tokens. -/
abbrev xrow (c : Dev nD) (R : Fin 8192) : Fin 1024 → EReal := fun k => X m c (ix2 R k)

/-- The region's output array, by rows. -/
def outRows (c : Dev nD) : S8192x1024.Idx → EReal := fun I =>
  expert (xrow m c (I 0 : Fin 8192)) (Wg0 m c) (Wu0 m c) (Wd0 m c) (I 1 : Fin 1024) * sel (Mk m c (ix2 (I 0 : Fin 8192) (0 : Fin 1))) 0#32
    + expert (xrow m c (I 0 : Fin 8192)) (Wg1 m c) (Wu1 m c) (Wd1 m c) (I 1 : Fin 1024) * sel (Mk m c (ix2 (I 0 : Fin 8192) (0 : Fin 1))) 1#32

end Cert.KernelIdeal.Arrays

end
-- ==== Proof.Accum.lean ====
/-
  The two running sums after every grid point, and the output block at a last tile, as the specification's terms.

  Grid point n = 14·i + j works on token block i and hidden tile j. By induction on n, entry (r, d) of expert e's
  running sum after point n is the specification's accumulation over tiles 0 … j of token row 1024·i + r,
      acc (token row) Wg_e Wu_e Wd_e d j:
  at j = 0 the body adds tile 0's term to the zero block; at j > 0 it adds tile j's term to the sum the point before
  left, which by the induction hypothesis is the accumulation over tiles 0 … j − 1 of the SAME token block
  (n − 1 and n share i). At j = 13 the accumulation is the expert's whole sum, and the output block's entry is
      expert₀ · [mask = 0] + expert₁ · [mask = 1].
-/
import proofs.«177753_j52956946759945_2_alg».proof.Proof.Steps
import proofs.«177753_j52956946759945_2_alg».proof.Proof.Payload
import proofs.«177753_j52956946759945_2_alg».proof.Proof.Blocks
import proofs.«177753_j52956946759945_2_alg».proof.Proof.TileAlg
import proofs.«177753_j52956946759945_2_alg».proof.Proof.Arrays

set_option maxRecDepth 16384

noncomputable section

open scoped BigOperators

namespace Cert.KernelIdeal.Accum

open Cert.KernelIdeal Cert.KernelIdeal.Gen
open Idealize.ShloMosaic Idealize.ShloMosaic.TcCoe Idealize.ShloMosaic.ValueIdx Idealize.SL.Sem
open Cert.MoeSpec Cert.Lib.TileSum Cert.KernelIdeal.Arrays

variable (m : (ℓ : Loc nD τ sig) → Buf (Elt Ideal) ℓ)

theorem tile_lt (t : Fin cfg0.N) : t.val % 14 < 14 := Nat.mod_lt _ (by norm_num)

/-- One update of expert 0's sum at an entry: what was there plus the tile's term. -/
theorem upd0_apply (c : Dev nD) (t : Fin cfg0.N) (old : Vec Ideal S1024x1024 .f32) (r d : Fin 1024) (R : Fin 8192)
    (hR : R.val = 1024 * (t.val / 14) + r.val) :
    k0_pay6 (iblk m c 0 t) (iblk m c 1 t) (iblk m c 2 t) old (iblk m c 3 t) (ix2 r d)
      = old (ix2 r d) + tileTermN (xrow m c R) (Wg0 m c) (Wu0 m c) (Wd0 m c) d (t.val % 14) := by
  refine (Payload.pay6_apply (iblk m c 0 t) (iblk m c 1 t) (iblk m c 2 t) old (iblk m c 3 t) r d).trans ?_
  exact congrArg (old (ix2 r d) + ·)
    (tile_of_blocks (iblk m c 0 t) (iblk m c 1 t) (iblk m c 2 t) (iblk m c 3 t) (xrow m c R) (Wg0 m c) (Wu0 m c) (Wd0 m c) r d
      (t.val % 14) (tile_lt t)
      (fun k => Blocks.blk_tokens m c t r k R hR)
      (fun k f => Blocks.blk_wg0 m c t k f _ rfl)
      (fun k f => Blocks.blk_wu0 m c t k f _ rfl)
      (fun f => Blocks.blk_wd0 m c t f d _ rfl))

/-- One update of expert 1's sum at an entry. -/
theorem upd1_apply (c : Dev nD) (t : Fin cfg0.N) (old : Vec Ideal S1024x1024 .f32) (r d : Fin 1024) (R : Fin 8192)
    (hR : R.val = 1024 * (t.val / 14) + r.val) :
    k0_pay1 (k0_pay7 (iblk m c 0 t) (iblk m c 4 t) (iblk m c 5 t)) old (iblk m c 6 t) (ix2 r d)
      = old (ix2 r d) + tileTermN (xrow m c R) (Wg1 m c) (Wu1 m c) (Wd1 m c) d (t.val % 14) := by
  refine (Payload.pay1_apply (k0_pay7 (iblk m c 0 t) (iblk m c 4 t) (iblk m c 5 t)) old (iblk m c 6 t) r d).trans ?_
  refine congrArg (old (ix2 r d) + ·) ?_
  refine Eq.trans (Finset.sum_congr rfl fun f _ => ?_)
    (tile_of_blocks (iblk m c 0 t) (iblk m c 4 t) (iblk m c 5 t) (iblk m c 6 t) (xrow m c R) (Wg1 m c) (Wu1 m c) (Wd1 m c) r d
      (t.val % 14) (tile_lt t)
      (fun k => Blocks.blk_tokens m c t r k R hR)
      (fun k f => Blocks.blk_wg1 m c t k f _ rfl)
      (fun k f => Blocks.blk_wu1 m c t k f _ rfl)
      (fun f => Blocks.blk_wd1 m c t f d _ rfl))
  rw [Payload.pay7_apply (iblk m c 0 t) (iblk m c 4 t) (iblk m c 5 t) r f]

/-- THE INVARIANT: after point n both sums are the specification's accumulations over the tiles done so far. -/
theorem sums (c : Dev nD) : ∀ (n : ℕ) (h : n < cfg0.N) (r d : Fin 1024) (R : Fin 8192), R.val = 1024 * (n / 14) + r.val →
    ((outsAt0 m c n h).2.1 : S1024x1024.Idx → EReal) (ix2 r d) = acc (xrow m c R) (Wg0 m c) (Wu0 m c) (Wd0 m c) d (n % 14)
    ∧ ((outsAt0 m c n h).2.2 : S1024x1024.Idx → EReal) (ix2 r d) = acc (xrow m c R) (Wg1 m c) (Wu1 m c) (Wd1 m c) d (n % 14)
  | 0, h => by
    intro r d R hR
    have h0 : (⟨0, h⟩ : Fin cfg0.N).val % 14 = 0 := rfl
    have h1 : ¬(⟨0, h⟩ : Fin cfg0.N).val % 14 = 13 := by show ¬(0 % 14 = 13); decide
    constructor
    · rw [Steps.at_first0 m c ⟨0, h⟩ h0 h1, upd0_apply m c ⟨0, h⟩ _ r d R hR, Payload.pay3_apply r d]
      rfl
    · rw [Steps.at_first1 m c ⟨0, h⟩ h0 h1, upd1_apply m c ⟨0, h⟩ _ r d R hR, Payload.pay4_apply r d]
      rfl
  | n + 1, h => by
    intro r d R hR
    have hN : n + 1 < 112 := lt_of_lt_of_eq h N_0
    by_cases h0 : (n + 1) % 14 = 0
    · have h1 : ¬(n + 1) % 14 = 13 := by omega
      constructor
      · rw [Steps.at_first0 m c ⟨n + 1, h⟩ h0 h1, upd0_apply m c ⟨n + 1, h⟩ _ r d R hR, Payload.pay3_apply r d]
        show (0 : EReal) + tileTermN _ _ _ _ d ((n + 1) % 14) = acc _ _ _ _ d ((n + 1) % 14)
        rw [h0]; rfl
      · rw [Steps.at_first1 m c ⟨n + 1, h⟩ h0 h1, upd1_apply m c ⟨n + 1, h⟩ _ r d R hR, Payload.pay4_apply r d]
        show (0 : EReal) + tileTermN _ _ _ _ d ((n + 1) % 14) = acc _ _ _ _ d ((n + 1) % 14)
        rw [h0]; rfl
    · have e : (n + 1) % 14 = n % 14 + 1 := by omega
      have hR' : R.val = 1024 * (n / 14) + r.val := by omega
      obtain ⟨ih0, ih1⟩ := sums c n (Nat.lt_of_succ_lt h) r d R hR'
      by_cases h1 : (n + 1) % 14 = 13
      · constructor
        · rw [Steps.at_last0 m c ⟨n + 1, h⟩ h0 h1, upd0_apply m c ⟨n + 1, h⟩ _ r d R hR]
          show ((outsAt0 m c n _).2.1 : S1024x1024.Idx → EReal) (ix2 r d) + tileTermN _ _ _ _ d ((n + 1) % 14) = acc _ _ _ _ d ((n + 1) % 14)
          rw [ih0, e]; rfl
        · rw [Steps.at_last1 m c ⟨n + 1, h⟩ h0 h1, upd1_apply m c ⟨n + 1, h⟩ _ r d R hR]
          show ((outsAt0 m c n _).2.2 : S1024x1024.Idx → EReal) (ix2 r d) + tileTermN _ _ _ _ d ((n + 1) % 14) = acc _ _ _ _ d ((n + 1) % 14)
          rw [ih1, e]; rfl
      · constructor
        · rw [Steps.at_mid0 m c ⟨n + 1, h⟩ h0 h1, upd0_apply m c ⟨n + 1, h⟩ _ r d R hR]
          show ((outsAt0 m c n _).2.1 : S1024x1024.Idx → EReal) (ix2 r d) + tileTermN _ _ _ _ d ((n + 1) % 14) = acc _ _ _ _ d ((n + 1) % 14)
          rw [ih0, e]; rfl
        · rw [Steps.at_mid1 m c ⟨n + 1, h⟩ h0 h1, upd1_apply m c ⟨n + 1, h⟩ _ r d R hR]
          show ((outsAt0 m c n _).2.2 : S1024x1024.Idx → EReal) (ix2 r d) + tileTermN _ _ _ _ d ((n + 1) % 14) = acc _ _ _ _ d ((n + 1) % 14)
          rw [ih1, e]; rfl

/-- THE OUTPUT BLOCK at a last tile: both experts' whole sums, combined by the routing mask of the token. -/
theorem out_last (c : Dev nD) (t : Fin cfg0.N) (h0 : ¬t.val % 14 = 0) (h1 : t.val % 14 = 13) (r d : Fin 1024) (R : Fin 8192)
    (hR : R.val = 1024 * (t.val / 14) + r.val) :
    ((outsAt0 m c t.val t.isLt).1 : S1024x1024.Idx → EReal) (ix2 r d)
      = expert (xrow m c R) (Wg0 m c) (Wu0 m c) (Wd0 m c) d * sel (Mk m c (ix2 R (0 : Fin 1))) 0#32
        + expert (xrow m c R) (Wg1 m c) (Wu1 m c) (Wd1 m c) d * sel (Mk m c (ix2 R (0 : Fin 1))) 1#32 := by
  obtain ⟨s0, s1⟩ := sums m c t.val t.isLt r d R hR
  rw [Steps.at_last_out m c t h0 h1,
    Payload.pay2_apply (iblk m c 7 t) (outsAt0 m c t.val t.isLt).2.1 (outsAt0 m c t.val t.isLt).2.2 r d,
    Blocks.blk_mask m c t r R hR]
  rw [show ((outsAt0 m c t.val t.isLt).2.1 : S1024x1024.Idx → EReal) (ix2 r d) = _ from s0,
    show ((outsAt0 m c t.val t.isLt).2.2 : S1024x1024.Idx → EReal) (ix2 r d) = _ from s1, h1, acc_last, acc_last]

end Cert.KernelIdeal.Accum

end
-- ==== Proof.Final.lean ====
/-
  The kernel's result array.

  Only the last tile of each token block writes its output block back, and those eight blocks tile the [8192, 1024]
  array of rows: row R = 1024·i + r, column d holds
      expert₀ (token row R) d · [mask R = 0] + expert₁ (token row R) d · [mask R = 1]   (`outRows`).
  The host then views the rows as [2, 4096, 1024] (row 4096·b + s is token (b, s)); with the arrays the region found
  written in terms of the argument arrays this is the specification's `moe` of the arguments, index by index.
-/
import proofs.«177753_j52956946759945_2_alg».proof.Proof.Accum
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Final

open Cert.KernelIdeal Cert.KernelIdeal.Gen Cert.KernelIdeal.Accum Cert.KernelIdeal.Arrays
open Idealize.ShloMosaic Idealize.ShloMosaic.TcCoe Idealize.ShloMosaic.Tactic Idealize.ShloMosaic.ValueIdx Idealize.SL.Sem
open Idealize.ShloMosaic.Pipeline (Dat)
open Cert.MoeSpec Cert.Lib.TileSum

variable (m : (ℓ : Loc nD τ sig) → Buf (Elt Ideal) ℓ) (ρ : Dev nD → PrngReg)

theorem rows : 8 * 1024 = 8192 := by norm_num
theorem toks : 2 * 4096 = 8192 := by norm_num

/-- The output window's index map over the grid: block (t / 14, 0). -/
theorem idx_out : ∀ t : Fin cfg0.N, win0_8.index t (0 : Fin 2) = t.val / 14 ∧ win0_8.index t (1 : Fin 2) = 0 :=
  (by decide +kernel : ∀ t : Fin grid0.N, _)

/-- What a last tile writes back is its block of `outRows`. -/
theorem flushed_eq (c : Dev nD) (t : Fin cfg0.N) (hf : (cfg0.win 8).flush t = true) :
    (dats m 0 c).flushed 8 t = ((cfg0.win 8).blk t).view.read (Elt Ideal) (outRows m c) := by
  have h13 : t.val % 14 = 13 := (flush0_8 t).mp hf
  have h0 : ¬t.val % 14 = 0 := by omega
  have hN : t.val < 112 := lt_of_lt_of_eq t.isLt N_0
  show (cfg0.win 8).cut (grid0.coords t) ((dats m 0 c).after 8 t) = _
  rw [after0_8]
  funext y
  obtain ⟨r, d, rfl⟩ : ∃ (r : Fin 1024) (d : Fin 1024), y = ix2 r d := ⟨y 0, y 1, eq_ix2 y⟩
  have hR : (tileRow rows ⟨t.val / 14, by omega⟩ r).val = 1024 * (t.val / 14) + r.val := rfl
  have hemb : ((cfg0.win 8).blk t).view.emb (ix2 r d) = (ix2 (tileRow rows ⟨t.val / 14, by omega⟩ r) d : S8192x1024.Idx) := by
    funext a; apply Fin.ext
    match a with
    | ⟨0, _⟩ => show win0_8.index t (0 : Fin 2) * 1024 + 1 * r.val = 1024 * (t.val / 14) + r.val; rw [(idx_out t).1]; omega
    | ⟨1, _⟩ => show win0_8.index t (1 : Fin 2) * 1024 + 1 * d.val = d.val; rw [(idx_out t).2]; omega
  show ((outsAt0 m c t.val t.isLt).1 : S1024x1024.Idx → EReal) (ix2 r d) = outRows m c (((cfg0.win 8).blk t).view.emb (ix2 r d))
  rw [hemb]
  exact out_last m c t h0 h13 r d _ hR

/-- An index of the output array is in point t's block iff each coordinate is in the block's range. -/
theorem mem_blk (t : Fin cfg0.N) (i : S8192x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v9).slice (win0_8.rect t)).set ↔ _
  rw [View.set_slice_whole, Rect.mem_set_unit]
  exact Iff.rfl

/-- Every row is in the block written back at the last tile of its token block. -/
theorem cover (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 112 := N_0
  have hlt : 14 * ((i 0).val / 1024) + 13 < cfg0.N := by rw [hN]; omega
  refine ⟨⟨14 * ((i 0).val / 1024) + 13, hlt⟩, (flush0_8 _).mpr (by show (14 * ((i 0).val / 1024) + 13) % 14 = 13; omega), ?_⟩
  rw [mem_blk]
  intro a
  have q0 := (idx_out ⟨14 * ((i 0).val / 1024) + 13, hlt⟩).1
  have q1 := (idx_out ⟨14 * ((i 0).val / 1024) + 13, hlt⟩).2
  have e0 : (14 * ((i 0).val / 1024) + 13) / 14 = (i 0).val / 1024 := by omega
  match a with
  | ⟨0, _⟩ =>
    show win0_8.index ⟨14 * ((i 0).val / 1024) + 13, hlt⟩ (0 : Fin 2) * 1024 ≤ (i 0).val ∧ (i 0).val < win0_8.index ⟨14 * ((i 0).val / 1024) + 13, hlt⟩ (0 : Fin 2) * 1024 + 1024
    rw [q0]; show (14 * ((i 0).val / 1024) + 13) / 14 * 1024 ≤ (i 0).val ∧ (i 0).val < (14 * ((i 0).val / 1024) + 13) / 14 * 1024 + 1024
    rw [e0]; omega
  | ⟨1, _⟩ =>
    show win0_8.index ⟨14 * ((i 0).val / 1024) + 13, hlt⟩ (1 : Fin 2) * 1024 ≤ (i 1).val ∧ (i 1).val < win0_8.index ⟨14 * ((i 0).val / 1024) + 13, hlt⟩ (1 : Fin 2) * 1024 + 1024
    rw [q1]; omega

/-- So the region's output array ends holding `outRows`. -/
theorem final (c : Dev nD) : (dats m 0 c).arrAt 8 cfg0.N = outRows m c :=
  (dats m 0 c).arrAt_eq_of_cover 8 (outRows m c) (flushed_eq m c) cover

/-- The program's result: the rows viewed as [2, 4096, 1024]. -/
def result (c : Dev nD) : Buf (Elt Ideal) ((c : Thread nD τ).loc main_v10) :=
  shapeCast S2x4096x1024 (outRows m c) shapeCasts_S8192x1024_S2x4096x1024

/-- What the host operation after the region leaves in the result buffer. -/
theorem tail_eq (c : Dev nD) :
    Pipeline.afterTail₀ cfgs (dats m) 0 (V0 m) [hostOps1] c main_v10 = result m c := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v9)
      = outRows m c :=
    (Pipeline.withArrays_arr spec0 launch0.win.arr_inj c _ _ 8).trans (final m c)
  rw [hw]
  rfl

/-- THE RUN, READ: every weakly fair execution of the program ends with the result buffer at `result` and the
    argument arrays unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Final

end
-- ==== Proof.RowsView.lean ====
/-
  The region's output rows, viewed as [2, 4096, 1024], are the specification of the argument arrays.

  The region leaves its output by rows: row R, column d holds
      expert₀ (token row R) d · [mask R = 0] + expert₁ (token row R) d · [mask R = 1],
  over the arrays the region finds. Splitting the rows back into (b, s) keeps every element at its row-major
  position, so the element (b, s, d) of the view is row R = 4096·b + s, column d. Of the arrays the region finds,
  token row R is token (b, s) of the argument, entry R of the mask column is the mask word of token (b, s), and the
  six weight arrays are the arguments themselves as extended reals. Substituting these, the element (b, s, d) is
  the specification at (b, s, d), term for term.
-/
import proofs.«177753_j52956946759945_2_alg».proof.Proof.Arrays
import proofs.«177753_j52956946759945_2_alg».proof.Proof.Blocks
import proofs.«177753_j52956946759945_2_alg».proof.Proof.LibRowsMerge
import proofs.«177753_j52956946759945_2_alg».proof.Proof.Spec

noncomputable section

namespace Cert.KernelIdeal.RowsView

open Cert.KernelIdeal Cert.KernelIdeal.Gen
open Idealize.ShloMosaic Idealize.ShloMosaic.TcCoe Idealize.ShloMosaic.ValueIdx Idealize.SL.Sem
open Cert.MoeSpec Cert.KernelIdeal.Arrays

variable (m : (ℓ : Loc nD τ sig) → Buf (Elt Ideal) ℓ)

/-- The output rows viewed as [2, 4096, 1024] are the layer of the argument arrays. -/
theorem rows_view (c : Dev nD) :
    shapeCast S2x4096x1024 (outRows m c) shapeCasts_S8192x1024_S2x4096x1024
      = moe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨b, s, d, rfl⟩ : ∃ (b : Fin 2) (s : Fin 4096) (d : Fin 1024), i = ix3 b s d := ⟨i 0, i 1, i 2, eq_ix3 i⟩
  -- the row of token (b, s)
  obtain ⟨R, hR⟩ : ∃ R : Fin 8192, R.val = 4096 * b.val + s.val :=
    ⟨Cert.Lib.TileSum.tileRow (by norm_num : 2 * 4096 = 8192) b s, rfl⟩
  rw [Cert.Lib.RowsMerge.split_apply (outRows m c) shapeCasts_S8192x1024_S2x4096x1024 b s d R hR]
  show expert (fun k => V m c main_v1 (ix2 R k)) (V m c main_v2) (V m c main_v3) (V m c main_v4) d
          * sel (V m c main_v8 (ix2 R (0 : Fin 1))) 0#32
        + expert (fun k => V m c main_v1 (ix2 R k)) (V m c main_v5) (V m c main_v6) (V m c main_v7) d
          * sel (V m c main_v8 (ix2 R (0 : Fin 1))) 1#32
      = expert (fun k => (m ((c : Thread nD τ).loc main_arg0)) (ix3 b s k)) (m ((c : Thread nD τ).loc main_arg2)) (m ((c : Thread nD τ).loc main_arg3)) (m ((c : Thread nD τ).loc main_arg4)) d
          * sel ((m ((c : Thread nD τ).loc main_arg1)) (ix2 b s)) 0#32
        + expert (fun k => (m ((c : Thread nD τ).loc main_arg0)) (ix3 b s k)) (m ((c : Thread nD τ).loc main_arg5)) (m ((c : Thread nD τ).loc main_arg6)) (m ((c : Thread nD τ).loc main_arg7)) d
          * sel ((m ((c : Thread nD τ).loc main_arg1)) (ix2 b s)) 1#32
  rw [show (fun k => V m c main_v1 (ix2 R k)) = fun k => (m ((c : Thread nD τ).loc main_arg0)) (ix3 b s k) from
        funext fun k => Blocks.V_tokens m c R k b s hR,
    Blocks.V_mask m c R b s hR, Blocks.V_wg0 m c, Blocks.V_wu0 m c, Blocks.V_wd0 m c, Blocks.V_wg1 m c, Blocks.V_wu1 m c,
    Blocks.V_wd1 m c]

end Cert.KernelIdeal.RowsView

end
-- ==== Proof.lean ====
/-
  The certificate: a fused two-expert gated layer with a routing mask equals its plain reference on the extended reals.

  Both programs compute, at token (b, s) and column d,
      expert₀ x d · [mask (b, s) = 0] + expert₁ x d · [mask (b, s) = 1],
      expert x d = ∑ f < 3584, (g f · logistic (g f)) · u f · Wd (f, d),   g f = ∑ k, x k · Wg (k, f),  u f = ∑ k, x k · Wu (k, f)
  (Proof/Spec.lean). The reference spells this out one operation at a time (Proof/RefValue.lean). The kernel flattens
  the tokens to 8192 rows, walks a grid of 8 token blocks × 14 hidden tiles, keeps one running sum per expert across
  the 14 tiles of a token block and writes the masked combination at the last tile; by induction over the grid the
  running sums are the specification's tile-by-tile accumulations (Proof/Accum.lean), which after the last tile are
  the whole sums — a finite sum on the extended reals may be regrouped freely, so no finiteness of the inputs is used.
  The eight output blocks tile the rows, and the rows viewed as [2, 4096, 1024] are the specification of the argument
  arrays (Proof/Final.lean, Proof/RowsView.lean). Changes of float format are the identity on the extended reals.
  The three programs' runs (termination, no fault, arguments unchanged) are the generated frame runs and the
  reference's generated run; the idealization rewrote nothing.
-/
import proofs.«177753_j52956946759945_2_alg».proof.Defs
import proofs.«177753_j52956946759945_2_alg».proof.Proof.Gen.Kernel
import proofs.«177753_j52956946759945_2_alg».proof.Proof.Gen.Kernel.Frame
import proofs.«177753_j52956946759945_2_alg».proof.Proof.Gen.KernelIdeal
import proofs.«177753_j52956946759945_2_alg».proof.Proof.Gen.KernelIdeal.Frame
import proofs.«177753_j52956946759945_2_alg».proof.Proof.Gen.ReferenceIdeal
import proofs.«177753_j52956946759945_2_alg».proof.Proof.Gen.Pre_finite_inputs
import proofs.«177753_j52956946759945_2_alg».proof.Proof.Gen.ReferenceIdeal.Run
import proofs.«177753_j52956946759945_2_alg».proof.Proof.Gen.ReferenceIdeal.Read
import proofs.«177753_j52956946759945_2_alg».proof.Proof.RefValue
import proofs.«177753_j52956946759945_2_alg».proof.Proof.Final
import proofs.«177753_j52956946759945_2_alg».proof.Proof.RowsView
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run with its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at the specification of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.KernelIdeal.RowsView.rows_view m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
